-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v70)) (v1 : (c : Dev Cert.KernelIdeal.nD) → Buf (Elt Ideal) ((c.tc : Thread Cert.KernelIdeal.nD Cert.KernelIdeal.τ).loc Cert.KernelIdeal.main_v72)) (v2 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_v72) = v1 c
          ∧ r.2.mem ((c.tc : Thread Cert.KernelIdeal.nD Cert.KernelIdeal.τ).loc Cert.KernelIdeal.main_v68) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x4 : Shape := ⟨2, ![128, 4]⟩
abbrev S4 : Shape := ⟨1, ![4]⟩
abbrev S128x3 : Shape := ⟨2, ![128, 3]⟩
abbrev S3 : Shape := ⟨1, ![3]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg8 : FVec F S128x3 .f32) (main_arg9 : FVec F S3 .f32) (main_v33 : IVec S_ 1) : IVec S_ 1 :=
  let main_v34 : FVec F S128x3 .f32 := Host.absf main_arg8
  let main_cst_12 : FVec F S_ .f32 := constant S_ .f32 0x7F800000#32
  let main_v35 : FVec F S128x3 .f32 := broadcastInDim S128x3 ![] bcast_S_S128x3 main_cst_12
  let main_v36 : IVec S128x3 1 := cmpf .olt main_v34 main_v35
  let main_c_13 : IVec S_ 1 := constantI S_ 1 1#1
  let main_v37 : IVec S_ 1 := (fun x v => Host.reduce IntOp.andi x v reducesTo_S128x3_S_d0_1 h_S_) main_v36 main_c_13
  let main_v38 : IVec S_ 1 := andi main_v33 main_v37
  let main_v39 : FVec F S3 .f32 := Host.absf main_arg9
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  main_v43

def fn_part1 {F : FTy → Type} [FloatOps F] (main_arg5 : FVec F S128 .f32) (main_arg6 : FVec F S128x4 .f32) (main_arg7 : FVec F S4 .f32) (main_arg8 : FVec F S128x3 .f32) (main_arg9 : FVec F S3 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x4 .f32 := Host.absf main_arg6
  let main_cst_8 : FVec F S_ .f32 := constant S_ .f32 0x7F800000#32
  let main_v25 : FVec F S128x4 .f32 := broadcastInDim S128x4 ![] bcast_S_S128x4 main_cst_8
  let main_v26 : IVec S128x4 1 := cmpf .olt main_v24 main_v25
  let main_c_9 : IVec S_ 1 := constantI S_ 1 1#1
  let main_v27 : IVec S_ 1 := (fun x v => Host.reduce IntOp.andi x v reducesTo_S128x4_S_d0_1 h_S_) main_v26 main_c_9
  let main_v28 : IVec S_ 1 := andi main_v23 main_v27
  let main_v29 : FVec F S4 .f32 := Host.absf main_arg7
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  fn_part2 (F := F) main_arg8 main_arg9 main_v33

def fn {F : FTy → Type} [FloatOps F] (main_arg0 : FVec F S50000x256 .f32) (main_arg1 : IVec S2x800000 32) (main_arg2 : FVec F S256x128 .f32) (main_arg3 : FVec F S128 .f32) (main_arg4 : FVec F S128x128 .f32) (main_arg5 : FVec F S128 .f32) (main_arg6 : FVec F S128x4 .f32) (main_arg7 : FVec F S4 .f32) (main_arg8 : FVec F S128x3 .f32) (main_arg9 : FVec F S3 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x4 : Shape := ⟨2, ![128, 4]⟩
abbrev S4 : Shape := ⟨1, ![4]⟩
abbrev S128x3 : Shape := ⟨2, ![128, 3]⟩
abbrev S3 : Shape := ⟨1, ![3]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S1x128 : Shape := ⟨2, ![1, 128]⟩
abbrev S50000x128 : Shape := ⟨2, ![50000, 128]⟩
abbrev S5000x256 : Shape := ⟨2, ![5000, 256]⟩
abbrev S5000x128 : Shape := ⟨2, ![5000, 128]⟩
abbrev S850000x128 : Shape := ⟨2, ![850000, 128]⟩
abbrev S1x4 : Shape := ⟨2, ![1, 4]⟩
abbrev S50000x4 : Shape := ⟨2, ![50000, 4]⟩
abbrev S5000x4 : Shape := ⟨2, ![5000, 4]⟩
abbrev S1x3 : Shape := ⟨2, ![1, 3]⟩
abbrev S50000x3 : Shape := ⟨2, ![50000, 3]⟩
abbrev S5000x3 : Shape := ⟨2, ![5000, 3]⟩

abbrev nBuf : Space → Nat
  | .hbm => 103
  | .vmem => 24
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x4, .f32⟩
  | .hbm, ⟨7, _⟩ => ⟨S4, .f32⟩
  | .hbm, ⟨8, _⟩ => ⟨S128x3, .f32⟩
  | .hbm, ⟨9, _⟩ => ⟨S3, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S50000, .i32⟩
  | .hbm, ⟨15, _⟩ => ⟨S850000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S_, .f32⟩
  | .hbm, ⟨51, _⟩ => ⟨S128, .f32⟩
  | .hbm, ⟨52, _⟩ => ⟨S1x128, .f32⟩
  | .hbm, ⟨53, _⟩ => ⟨S50000x128, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x128, .f32⟩
  | .hbm, ⟨63, _⟩ => ⟨S850000x1, .f32⟩
  | .hbm, ⟨64, _⟩ => ⟨S850000x128, .f32⟩
  | .hbm, ⟨65, _⟩ => ⟨S850000x128, .f32⟩
  | .hbm, ⟨66, _⟩ => ⟨S_, .f32⟩
  | .hbm, ⟨67, _⟩ => ⟨S50000x128, .f32⟩
  | .hbm, ⟨68, _⟩ => ⟨S850000x1, .i32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000x128, .f32⟩
  | .hbm, ⟨75, _⟩ => ⟨S50000x128, .f32⟩
  | .hbm, ⟨76, _⟩ => ⟨S_, .f32⟩
  | .hbm, ⟨77, _⟩ => ⟨S128, .f32⟩
  | .hbm, ⟨78, _⟩ => ⟨S1x128, .f32⟩
  | .hbm, ⟨79, _⟩ => ⟨S50000x128, .f32⟩
  | .hbm, ⟨80, _⟩ => ⟨S_, .i32⟩
  | .hbm, ⟨81, _⟩ => ⟨S850000, .i32⟩
  | .hbm, ⟨82, _⟩ => ⟨S850000, .i1⟩
  | .hbm, ⟨83, _⟩ => ⟨S_, .i32⟩
  | .hbm, ⟨84, _⟩ => ⟨S850000, .i32⟩
  | .hbm, ⟨85, _⟩ => ⟨S850000, .i32⟩
  | .hbm, ⟨86, _⟩ => ⟨S850000, .i32⟩
  | .hbm, ⟨87, _⟩ => ⟨S850000x1, .i32⟩
  | .hbm, ⟨88, _⟩ => ⟨S850000x128, .f32⟩
  | .hbm, ⟨89, _⟩ => ⟨S850000x1, .f32⟩
  | .hbm, ⟨90, _⟩ => ⟨S850000x128, .f32⟩
  | .hbm, ⟨91, _⟩ => ⟨S850000x128, .f32⟩
  | .hbm, ⟨92, _⟩ => ⟨S_, .f32⟩
  | .hbm, ⟨93, _⟩ => ⟨S50000x128, .f32⟩
  | .hbm, ⟨94, _⟩ => ⟨S850000x1, .i32⟩
  | .hbm, ⟨95, _⟩ => ⟨S50000x128, .f32⟩
  | .hbm, ⟨96, _⟩ => ⟨S1x128, .f32⟩
  | .hbm, ⟨97, _⟩ => ⟨S50000x128, .f32⟩
  | .hbm, ⟨98, _⟩ => ⟨S50000x128, .f32⟩
  | .hbm, ⟨99, _⟩ => ⟨S1x4, .f32⟩
  | .hbm, ⟨100, _⟩ => ⟨S50000x4, .f32⟩
  | .hbm, ⟨101, _⟩ => ⟨S1x3, .f32⟩
  | .hbm, ⟨102, _⟩ => ⟨S50000x3, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x4, .f32⟩
  | .local _ .vmem, ⟨15, _⟩ => ⟨S1x4, .f32⟩
  | .local _ .vmem, ⟨16, _⟩ => ⟨S5000x4, .f32⟩
  | .local _ .vmem, ⟨17, _⟩ => ⟨S5000x4, .f32⟩
  | .local _ .vmem, ⟨18, _⟩ => ⟨S5000x128, .f32⟩
  | .local _ .vmem, ⟨19, _⟩ => ⟨S5000x128, .f32⟩
  | .local _ .vmem, ⟨20, _⟩ => ⟨S128x3, .f32⟩
  | .local _ .vmem, ⟨21, _⟩ => ⟨S1x3, .f32⟩
  | .local _ .vmem, ⟨22, _⟩ => ⟨S5000x3, .f32⟩
  | .local _ .vmem, ⟨23, _⟩ => ⟨S5000x3, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_c_12 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_13 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x4 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x4 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x4 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x3 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x3 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x3 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S128 : S_.BroadcastsInDim S128 (![] : Fin 0 → Fin S128.rank)
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S4_S1x4 : S4.ShapeCasts S1x4
  inb_S128x4_S128x4_0_0 : ∀ a, (![0, 0] : Fin 2 → Nat) a + S128x4.size a ≤ S128x4.size a
  h_S128x4 : 0 < S128x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S5000x4 : S1x4.Broadcasts S5000x4
  inb_S5000x4_S5000x4_0_0 : ∀ a, (![0, 0] : Fin 2 → Nat) a + S5000x4.size a ≤ S5000x4.size a
  h_S5000x4 : 0 < S5000x4.numel
  shapeCasts_S3_S1x3 : S3.ShapeCasts S1x3
  inb_S128x3_S128x3_0_0 : ∀ a, (![0, 0] : Fin 2 → Nat) a + S128x3.size a ≤ S128x3.size a
  h_S128x3 : 0 < S128x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S5000x3 : S1x3.Broadcasts S5000x3
  inb_S5000x3_S5000x3_0_0 : ∀ a, (![0, 0] : Fin 2 → Nat) a + S5000x3.size a ≤ S5000x3.size a
  h_S5000x3 : 0 < S5000x3.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x128_S5000x128_1_0_0_1_n_n_wf : DotDims.WF S5000x128 S128x128 S5000x128 [1] [0] [0] [1] [] []
  dot_S5000x128_S128x4_S5000x4_1_0_0_1_n_n_wf : DotDims.WF S5000x128 S128x4 S5000x4 [1] [0] [0] [1] [] []
  dot_S5000x128_S128x3_S5000x3_1_0_0_1_n_n_wf : DotDims.WF S5000x128 S128x3 S5000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x4.size a ≤ S128x4.size a
  hwx2_1 : ∀ i : grid2.Coords, EltTy.bits .f32 = 32 ∨ (Rect.block (s := S128x4) S128x4.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x4.size a ≤ S1x4.size a
  hwx2_2 : ∀ i : grid2.Coords, EltTy.bits .f32 = 32 ∨ (Rect.block (s := S1x4) S1x4.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x4.size a ≤ S50000x4.size a
  hwx2_3 : ∀ i : grid2.Coords, EltTy.bits .f32 = 32 ∨ (Rect.block (s := S50000x4) S5000x4.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x3.size a ≤ S128x3.size a
  hwx3_1 : ∀ i : grid3.Coords, EltTy.bits .f32 = 32 ∨ (Rect.block (s := S128x3) S128x3.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x3.size a ≤ S1x3.size a
  hwx3_2 : ∀ i : grid3.Coords, EltTy.bits .f32 = 32 ∨ (Rect.block (s := S1x3) S1x3.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x3.size a ≤ S50000x3.size a
  hwx3_3 : ∀ i : grid3.Coords, EltTy.bits .f32 = 32 ∨ (Rect.block (s := S50000x3) S5000x3.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x4_S5000x4_1_0_0_1_n_n : DotDims S5000x128 S128x4 S5000x4 where
  lhsContracting := [1]
  rhsContracting := [0]
  lhsNonContracting := [0]
  rhsNonContracting := [1]
  lhsBatch := []
  rhsBatch := []
  wf := dot_S5000x128_S128x4_S5000x4_1_0_0_1_n_n_wf
def dot_S5000x128_S128x3_S5000x3_1_0_0_1_n_n : DotDims S5000x128 S128x3 S5000x3 where
  lhsContracting := [1]
  rhsContracting := [0]
  lhsNonContracting := [0]
  rhsNonContracting := [1]
  lhsBatch := []
  rhsBatch := []
  wf := dot_S5000x128_S128x3_S5000x3_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v68) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x4.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v69) S1x4.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v70) S5000x4.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v68) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128x3.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v71) S1x3.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v72) S5000x3.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x4 : Shape := ⟨2, ![128, 4]⟩
abbrev S4 : Shape := ⟨1, ![4]⟩
abbrev S128x3 : Shape := ⟨2, ![128, 3]⟩
abbrev S3 : Shape := ⟨1, ![3]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x4 : Shape := ⟨2, ![50000, 4]⟩
abbrev S1x4 : Shape := ⟨2, ![1, 4]⟩
abbrev S50000x3 : Shape := ⟨2, ![50000, 3]⟩
abbrev S1x3 : Shape := ⟨2, ![1, 3]⟩

abbrev nBuf : Space → Nat
  | .hbm => 137
  | .vmem => 0
  | .smem => 0
  | _ => 0

abbrev hbmTy0_0 (i : Nat) : BufTy := match i % 128 with
  | 0 => ⟨S50000x256, .f32⟩
  | 1 => ⟨S2x800000, .i32⟩
  | 2 => ⟨S256x128, .f32⟩
  | 3 => ⟨S128, .f32⟩
  | 4 => ⟨S128x128, .f32⟩
  | 5 => ⟨S128, .f32⟩
  | 6 => ⟨S128x4, .f32⟩
  | 7 => ⟨S4, .f32⟩
  | 8 => ⟨S128x3, .f32⟩
  | 9 => ⟨S3, .f32⟩
  | 10 => ⟨S1x800000, .i32⟩
  | 11 => ⟨S800000, .i32⟩
  | 12 => ⟨S1x800000, .i32⟩
  | 13 => ⟨S800000, .i32⟩
  | 14 => ⟨S50000, .i32⟩
  | 15 => ⟨S850000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S50000x128, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x128, .f32⟩
  | 60 => ⟨S850000x1, .f32⟩
  | 61 => ⟨S850000x128, .f32⟩
  | 62 => ⟨S850000x128, .f32⟩
  | 63 => ⟨S_, .f32⟩
  | 64 => ⟨S50000x128, .f32⟩
  | 65 => ⟨S850000x1, .i32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S50000x128, .f32⟩
  | 72 => ⟨S50000x128, .f32⟩
  | 73 => ⟨S50000, .i32⟩
  | 74 => ⟨S850000, .i32⟩
  | 75 => ⟨S850000, .i32⟩
  | 76 => ⟨S_, .f32⟩
  | 77 => ⟨S850000, .f32⟩
  | 78 => ⟨S_, .f32⟩
  | 79 => ⟨S50000, .f32⟩
  | 80 => ⟨S850000x1, .i32⟩
  | 81 => ⟨S50000, .f32⟩
  | 82 => ⟨S_, .f32⟩
  | 83 => ⟨S50000, .f32⟩
  | 84 => ⟨S50000, .i1⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000, .f32⟩
  | 108 => ⟨S850000, .f32⟩
  | 109 => ⟨S50000x128, .f32⟩
  | 110 => ⟨S_, .i32⟩
  | 111 => ⟨S850000, .i32⟩
  | 112 => ⟨S850000, .i1⟩
  | 113 => ⟨S_, .i32⟩
  | 114 => ⟨S850000, .i32⟩
  | 115 => ⟨S850000, .i32⟩
  | 116 => ⟨S850000, .i32⟩
  | 117 => ⟨S850000x1, .i32⟩
  | 118 => ⟨S850000x128, .f32⟩
  | 119 => ⟨S850000x1, .f32⟩
  | 120 => ⟨S850000x128, .f32⟩
  | 121 => ⟨S850000x128, .f32⟩
  | 122 => ⟨S_, .f32⟩
  | 123 => ⟨S50000x128, .f32⟩
  | 124 => ⟨S850000x1, .i32⟩
  | 125 => ⟨S50000x128, .f32⟩
  | 126 => ⟨S1x128, .f32⟩
  | 127 => ⟨S50000x128, .f32⟩
  | _ => ⟨S50000x256, .f32⟩

abbrev hbmTy0_1 (i : Nat) : BufTy := match i % 128 with
  | 0 => ⟨S50000x128, .f32⟩
  | 1 => ⟨S50000x4, .f32⟩
  | 2 => ⟨S1x4, .f32⟩
  | 3 => ⟨S50000x4, .f32⟩
  | 4 => ⟨S50000x4, .f32⟩
  | 5 => ⟨S50000x3, .f32⟩
  | 6 => ⟨S1x3, .f32⟩
  | 7 => ⟨S50000x3, .f32⟩
  | 8 => ⟨S50000x3, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_9 : Ref sig .tc := ⟨.hbm, 76, rfl⟩
abbrev main_v51 : Ref sig .tc := ⟨.hbm, 77, rfl⟩
abbrev main_cst_10 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_11 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v58 : Ref sig .tc := ⟨.hbm, 89, rfl⟩
abbrev main_c_13 : Ref sig .tc := ⟨.hbm, 90, rfl⟩
abbrev main_v59 : Ref sig .tc := ⟨.hbm, 91, rfl⟩
abbrev main_v60 : Ref sig .tc := ⟨.hbm, 92, rfl⟩
abbrev main_c_14 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_c_15 : Ref sig .tc := ⟨.hbm, 99, rfl⟩
abbrev main_v66 : Ref sig .tc := ⟨.hbm, 100, rfl⟩
abbrev main_v67 : Ref sig .tc := ⟨.hbm, 101, rfl⟩
abbrev main_c_16 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_c_17 : Ref sig .tc := ⟨.hbm, 110, rfl⟩
abbrev main_v75 : Ref sig .tc := ⟨.hbm, 111, rfl⟩
abbrev main_v76 : Ref sig .tc := ⟨.hbm, 112, rfl⟩
abbrev main_c_18 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_19 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S4_S1x4_1 : S4.BroadcastsInDim S1x4 (![1] : Fin 1 → Fin S1x4.rank)
  bcast_S1x4_S50000x4_0_1 : S1x4.BroadcastsInDim S50000x4 (![0, 1] : Fin 2 → Fin S50000x4.rank)
  bcast_S3_S1x3_1 : S3.BroadcastsInDim S1x3 (![1] : Fin 1 → Fin S1x3.rank)
  bcast_S1x3_S50000x3_0_1 : S1x3.BroadcastsInDim S50000x3 (![0, 1] : Fin 2 → Fin S50000x3.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  dot_S50000x128_S128x4_S50000x4_1_0_0_1_n_n_wf : DotDims.WF S50000x128 S128x4 S50000x4 [1] [0] [0] [1] [] []
  dot_S50000x128_S128x3_S50000x3_1_0_0_1_n_n_wf : DotDims.WF S50000x128 S128x3 S50000x3 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x4_S50000x4_1_0_0_1_n_n : DotDims S50000x128 S128x4 S50000x4 where
  lhsContracting := [1]
  rhsContracting := [0]
  lhsNonContracting := [0]
  rhsNonContracting := [1]
  lhsBatch := []
  rhsBatch := []
  wf := dot_S50000x128_S128x4_S50000x4_1_0_0_1_n_n_wf
def dot_S50000x128_S128x3_S50000x3_1_0_0_1_n_n : DotDims S50000x128 S128x3 S50000x3 where
  lhsContracting := [1]
  rhsContracting := [0]
  lhsNonContracting := [0]
  rhsNonContracting := [1]
  lhsBatch := []
  rhsBatch := []
  wf := dot_S50000x128_S128x3_S50000x3_1_0_0_1_n_n_wf

class Facts : Prop extends Facts₀ where

variable [Facts]
-- ==== Proof.KernelRun.lean ====
/-
  The kernel program's run with EVERY buffer named: every weakly fair execution of @main terminates, nothing
  faulting, and each core's buffers outside the kernels' scratch end at the last boundary's contents `Gen.W12` — the
  fold of the host stretches and the four launches over the launch memory. The frame claim keeps of this only the
  ten argument arrays; the value claim also reads the three result arrays off it.
-/
import proofs.«104334_j12687333392400_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- @main's twelve segments run from the launch to the return; the last thread state holds every unscoped buffer
    at `W12`, and reading it against the final memory gives each buffer's final contents. -/
theorem every_buffer : θ_run defs (onTc (τ := τ) (main (F := F))) ⟨m, fun _ => 0, ρ⟩
    (fun r => ∀ c : Dev nD, ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

end Cert.KernelIdeal.Run

end
-- ==== Proof.InputProjection.lean ====
/-
  Launch 0 of the row-tiled linear kernel, read as ONE function of its three input arrays.

  The launch walks ten grid points; point `t` loads rows `5000·t … 5000·t + 4999` of the left operand
  (a `50000 × 256` array), the whole `256 × 128` weight matrix and the whole `1 × 128` bias row, and stores
  `rows · weights + bias` into rows `5000·t … 5000·t + 4999` of the `50000 × 128` output. Over the extended reals the
  two roundings to bf16 are the identity and the matrix unit's product into a zero accumulator is the plain sum
  over the contracted axis, so the block stored at point `t` is block `t` of

      product x w z (r, q) = (∑ k, x (r, k) · w (k, q)) + z (0, q),

  a function of the whole arrays. The ten row blocks tile the output (row `r` is in block `r / 5000`), hence after the
  launch the output array is `product` of the arrays the launch found.
-/
import proofs.«104334_j12687333392400_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.InputProjection

open Cert.KernelIdeal Cert.KernelIdeal.Gen Idealize.ShloMosaic Idealize.ShloMosaic.TcCoe Idealize.SL.Sem
open Idealize.ShloMosaic.Pipeline (Dat)

/-! ## The whole-array function -/

/-- Entry `(r, k)` of the left operand, for output entry `i = (r, q)`. -/
abbrev lhsAt (i : S50000x128.Idx) (k : Fin 256) : S50000x256.Idx := fun a => match a with
  | ⟨0, _⟩ => ⟨(i 0).val, (i 0).isLt⟩
  | ⟨1, _⟩ => ⟨k.val, k.isLt⟩
/-- Entry `(k, q)` of the weights, for output entry `i = (r, q)`. -/
abbrev rhsAt (i : S50000x128.Idx) (k : Fin 256) : S256x128.Idx := fun a => match a with
  | ⟨0, _⟩ => ⟨k.val, k.isLt⟩
  | ⟨1, _⟩ => ⟨(i 1).val, (i 1).isLt⟩
/-- Entry `(0, q)` of the bias row, for output entry `i = (r, q)`. -/
abbrev biasAt (i : S50000x128.Idx) : S1x128.Idx := fun a => match a with
  | ⟨0, _⟩ => ⟨0, Nat.one_pos⟩
  | ⟨1, _⟩ => ⟨(i 1).val, (i 1).isLt⟩

/-- `x · w` plus the bias row `z` on every row, entry by entry over the extended reals. -/
def product (x : Vec Ideal S50000x256 .f32) (w : Vec Ideal S256x128 .f32) (z : Vec Ideal S1x128 .f32) : Vec Ideal S50000x128 .f32 :=
  fun i => (∑ k : Fin 256, x (lhsAt i k) * w (rhsAt i k)) + z (biasAt i)

/-! ## One block: what the body stores, entry by entry -/

/-- The same three entries inside one `5000`-row block, for the block's entry `j = (p, q)`. -/
abbrev blkLhs (j : S5000x128.Idx) (k : Fin 256) : S5000x256.Idx := fun a => match a with
  | ⟨0, _⟩ => ⟨(j 0).val, (j 0).isLt⟩
  | ⟨1, _⟩ => ⟨k.val, k.isLt⟩
abbrev blkRhs (j : S5000x128.Idx) (k : Fin 256) : S256x128.Idx := fun a => match a with
  | ⟨0, _⟩ => ⟨k.val, k.isLt⟩
  | ⟨1, _⟩ => ⟨(j 1).val, (j 1).isLt⟩
abbrev blkBias (j : S5000x128.Idx) : S1x128.Idx := fun a => match a with
  | ⟨0, _⟩ => ⟨0, Nat.one_pos⟩
  | ⟨1, _⟩ => ⟨(j 1).val, (j 1).isLt⟩

/-- The block product's left index: its row is the output row, -/
theorem lhs_row (j : S5000x128.Idx) (q : dot_S5000x256_S256x128_S5000x128_1_0_0_1_n_n.contr.Idx) :
    (dot_S5000x256_S256x128_S5000x128_1_0_0_1_n_n.lhsIdx j q 0).val = (j 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
/-- its column the contraction index; -/
theorem lhs_col (j : S5000x128.Idx) (q : dot_S5000x256_S256x128_S5000x128_1_0_0_1_n_n.contr.Idx) :
    (dot_S5000x256_S256x128_S5000x128_1_0_0_1_n_n.lhsIdx j q 1).val = (q ⟨0, by decide⟩).val :=
  dot_S5000x256_S256x128_S5000x128_1_0_0_1_n_n.lhsIdx_val_of_single rfl j q
/-- the right index: its row is the contraction index, -/
theorem rhs_row (j : S5000x128.Idx) (q : dot_S5000x256_S256x128_S5000x128_1_0_0_1_n_n.contr.Idx) :
    (dot_S5000x256_S256x128_S5000x128_1_0_0_1_n_n.rhsIdx j q 0).val = (q ⟨0, by decide⟩).val :=
  dot_S5000x256_S256x128_S5000x128_1_0_0_1_n_n.rhsIdx_val_of_single rfl j q
/-- its column the output column. -/
theorem rhs_col (j : S5000x128.Idx) (q : dot_S5000x256_S256x128_S5000x128_1_0_0_1_n_n.contr.Idx) :
    (dot_S5000x256_S256x128_S5000x128_1_0_0_1_n_n.rhsIdx j q 1).val = (j 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The stored block at entry `j = (p, q)`: the sum over `k` of `rows (p, k) · weights (k, q)` (the roundings to bf16
    are the identity on extended reals, the accumulator starts at zero), plus the bias row at `q` (the row's cast to
    its own shape is the identity; its broadcast down the rows reads row `0`). -/
theorem stored_apply (x0 : Vec Ideal S5000x256 .f32) (x1 : Vec Ideal S256x128 .f32) (x2 : Vec Ideal S1x128 .f32) (j : S5000x128.Idx) :
    k0_pay1 (F := Ideal) x0 x1 x2 j = (∑ k : Fin 256, x0 (blkLhs j k) * x1 (blkRhs j k)) + x2 (blkBias j) := by
  unfold k0_pay1
  refine congrArg₂ (· + ·) ?_ ?_
  · refine (Ideal.matmul_constant_zero_apply dot_S5000x256_S256x128_S5000x128_1_0_0_1_n_n none _ _ j).trans ?_
    rw [← Equiv.sum_comp (ValueIdx.contrEquiv1 dot_S5000x256_S256x128_S5000x128_1_0_0_1_n_n 256 rfl rfl).symm]
    refine Finset.sum_congr rfl fun k _ => ?_
    have hk := ValueIdx.contrEquiv1_symm_val dot_S5000x256_S256x128_S5000x128_1_0_0_1_n_n 256 rfl rfl k
    have el : dot_S5000x256_S256x128_S5000x128_1_0_0_1_n_n.lhsIdx j ((ValueIdx.contrEquiv1 dot_S5000x256_S256x128_S5000x128_1_0_0_1_n_n 256 rfl rfl).symm k) = blkLhs j k := funext fun a => Fin.ext (by
      match a with
      | ⟨0, _⟩ => exact lhs_row _ _
      | ⟨1, _⟩ => exact (lhs_col _ _).trans hk)
    have er : dot_S5000x256_S256x128_S5000x128_1_0_0_1_n_n.rhsIdx j ((ValueIdx.contrEquiv1 dot_S5000x256_S256x128_S5000x128_1_0_0_1_n_n 256 rfl rfl).symm k) = blkRhs j k := funext fun a => Fin.ext (by
      match a with
      | ⟨0, _⟩ => exact (rhs_row _ _).trans hk
      | ⟨1, _⟩ => exact rhs_col _ _)
    rw [el, er]
    rfl
  · rw [shapeCast_self]
    exact broadcastTo_apply x2 _ j (blkBias j) (fun a => by
      match a with
      | ⟨0, _⟩ => rfl
      | ⟨1, _⟩ => rfl)

/-! ## From the blocks to the array -/

theorem origin : (![0, 0] : Fin 2 → Nat) = fun _ => 0 := funext fun a => by fin_cases a <;> rfl

/-- The printed index maps over the ten grid points: the left operand's and the output's row blocks move together,
    every other block index is zero, and the row block index is at most nine. -/
theorem grid_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 9 :=
  (by decide +kernel : ∀ t : Fin grid0.N, _)

/-- Every row block is some grid point's. -/
theorem grid_onto : ∀ q : Fin 10, ∃ t : Fin cfg0.N, win0_3.index t (0 : Fin 2) = q.val :=
  (by decide +kernel : ∀ q : Fin 10, ∃ t : Fin grid0.N, win0_3.index t (0 : Fin 2) = q.val)

section
variable (V : (c : Dev nD) → (b : Ref sig .tc) → Buf (Elt Ideal) ((c : Thread nD τ).loc b))

/-- What grid point `t` writes back is block `t` of `product` of the arrays as the launch finds them: entry `(p, q)` of
    the block sits at row `5000·t + p`, and the rows loaded at `t` are the same rows of the left operand. -/
theorem flushed_eq (c : Dev nD) (t : Fin cfg0.N) :
    (dat0 (F := Ideal) V c).flushed 3 t
      = ((cfg0.win 3).blk t).view.read (Elt Ideal) (product (V c main_arg0) (V c main_arg2) (V c main_v31)) := by
  show (cfg0.win 3).cut (grid0.coords t) ((dat0 V c).after 3 t) = _
  rw [after0_3]
  unfold out0_3
  rw [View.canon_unit_zero origin]
  simp only [View.ld_unit_zero (S := S5000x256) origin, View.ld_unit_zero (S := S256x128) origin, View.ld_unit_zero (S := S1x128) origin]
  obtain ⟨e0, e1, e2, e3, e4, e5, e6, e7⟩ := grid_facts t
  funext j
  show k0_pay1 (iblk0 V c 0 t) (iblk0 V c 1 t) (iblk0 V c 2 t) j
    = product (V c main_arg0) (V c main_arg2) (V c main_v31) (((cfg0.win 3).blk t).view.emb j)
  refine (stored_apply (iblk0 V c 0 t) (iblk0 V c 1 t) (iblk0 V c 2 t) j).trans ?_
  unfold product
  refine congrArg₂ (· + ·) (Finset.sum_congr rfl fun k _ => congrArg₂ (· * ·) ?_ ?_) ?_
  · show V c main_arg0 (((cfg0.win 0).blk t).view.emb (blkLhs j k)) = V c main_arg0 (lhsAt (((cfg0.win 3).blk t).view.emb j) k)
    refine congrArg _ (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 256 + 1 * k.val = k.val; omega
  · show V c main_arg2 (((cfg0.win 1).blk t).view.emb (blkRhs j k)) = V c main_arg2 (rhsAt (((cfg0.win 3).blk t).view.emb j) k)
    refine congrArg _ (funext fun a => Fin.ext ?_)
    match a with
    | ⟨0, _⟩ => show win0_1.index t (0 : Fin 2) * 256 + 1 * k.val = k.val; omega
    | ⟨1, _⟩ => show win0_1.index t (1 : Fin 2) * 128 + 1 * (j 1).val = win0_3.index t (1 : Fin 2) * 128 + 1 * (j 1).val; omega
  · show V c main_v31 (((cfg0.win 2).blk t).view.emb (blkBias j)) = V c main_v31 (biasAt (((cfg0.win 3).blk t).view.emb j))
    refine congrArg _ (funext fun a => Fin.ext ?_)
    match a with
    | ⟨0, _⟩ => show win0_2.index t (0 : Fin 2) * 1 + 1 * 0 = 0; omega
    | ⟨1, _⟩ => show win0_2.index t (1 : Fin 2) * 128 + 1 * (j 1).val = win0_3.index t (1 : Fin 2) * 128 + 1 * (j 1).val; omega

/-- An entry of the output array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v32).slice (win0_3.rect t)).set ↔ _
  rw [View.set_slice_whole, Rect.mem_set_unit]
  exact Iff.rfl

/-- Row `r` lies in the block of the grid point whose row block index is `r / 5000`: the blocks tile the array. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := grid_onto ⟨(i 0).val / 5000, by omega⟩
  have q0 : win0_3.index t (0 : Fin 2) = (i 0).val / 5000 := ht
  obtain ⟨-, -, -, -, -, -, e6, -⟩ := grid_facts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE OUTPUT ARRAY after the launch: `product` of the three input arrays as the launch found them. -/
theorem array_eq (c : Dev nD) :
    (dat0 (F := Ideal) V c).arrAt 3 cfg0.N = product (V c main_arg0) (V c main_arg2) (V c main_v31) :=
  (dat0 (F := Ideal) V c).arrAt_eq_of_cover 3 _ (fun t _ => flushed_eq V c t) cover

end

end Cert.KernelIdeal.InputProjection

end
-- ==== Proof.HiddenProjection.lean ====
/-
  Launch 1 of the row-tiled linear kernel, read as ONE function of its three input arrays.

  The launch walks ten grid points; point `t` loads rows `5000·t … 5000·t + 4999` of the left operand
  (a `50000 × 128` array), the whole `128 × 128` weight matrix and the whole `1 × 128` bias row, and stores
  `rows · weights + bias` into rows `5000·t … 5000·t + 4999` of the `50000 × 128` output. Over the extended reals the
  two roundings to bf16 are the identity and the matrix unit's product into a zero accumulator is the plain sum
  over the contracted axis, so the block stored at point `t` is block `t` of

      product x w z (r, q) = (∑ k, x (r, k) · w (k, q)) + z (0, q),

  a function of the whole arrays. The ten row blocks tile the output (row `r` is in block `r / 5000`), hence after the
  launch the output array is `product` of the arrays the launch found.
-/
import proofs.«104334_j12687333392400_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.HiddenProjection

open Cert.KernelIdeal Cert.KernelIdeal.Gen Idealize.ShloMosaic Idealize.ShloMosaic.TcCoe Idealize.SL.Sem
open Idealize.ShloMosaic.Pipeline (Dat)

/-! ## The whole-array function -/

/-- Entry `(r, k)` of the left operand, for output entry `i = (r, q)`. -/
abbrev lhsAt (i : S50000x128.Idx) (k : Fin 128) : S50000x128.Idx := fun a => match a with
  | ⟨0, _⟩ => ⟨(i 0).val, (i 0).isLt⟩
  | ⟨1, _⟩ => ⟨k.val, k.isLt⟩
/-- Entry `(k, q)` of the weights, for output entry `i = (r, q)`. -/
abbrev rhsAt (i : S50000x128.Idx) (k : Fin 128) : S128x128.Idx := fun a => match a with
  | ⟨0, _⟩ => ⟨k.val, k.isLt⟩
  | ⟨1, _⟩ => ⟨(i 1).val, (i 1).isLt⟩
/-- Entry `(0, q)` of the bias row, for output entry `i = (r, q)`. -/
abbrev biasAt (i : S50000x128.Idx) : S1x128.Idx := fun a => match a with
  | ⟨0, _⟩ => ⟨0, Nat.one_pos⟩
  | ⟨1, _⟩ => ⟨(i 1).val, (i 1).isLt⟩

/-- `x · w` plus the bias row `z` on every row, entry by entry over the extended reals. -/
def product (x : Vec Ideal S50000x128 .f32) (w : Vec Ideal S128x128 .f32) (z : Vec Ideal S1x128 .f32) : Vec Ideal S50000x128 .f32 :=
  fun i => (∑ k : Fin 128, x (lhsAt i k) * w (rhsAt i k)) + z (biasAt i)

/-! ## One block: what the body stores, entry by entry -/

/-- The same three entries inside one `5000`-row block, for the block's entry `j = (p, q)`. -/
abbrev blkLhs (j : S5000x128.Idx) (k : Fin 128) : S5000x128.Idx := fun a => match a with
  | ⟨0, _⟩ => ⟨(j 0).val, (j 0).isLt⟩
  | ⟨1, _⟩ => ⟨k.val, k.isLt⟩
abbrev blkRhs (j : S5000x128.Idx) (k : Fin 128) : S128x128.Idx := fun a => match a with
  | ⟨0, _⟩ => ⟨k.val, k.isLt⟩
  | ⟨1, _⟩ => ⟨(j 1).val, (j 1).isLt⟩
abbrev blkBias (j : S5000x128.Idx) : S1x128.Idx := fun a => match a with
  | ⟨0, _⟩ => ⟨0, Nat.one_pos⟩
  | ⟨1, _⟩ => ⟨(j 1).val, (j 1).isLt⟩

/-- The block product's left index: its row is the output row, -/
theorem lhs_row (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- its column the contraction index; -/
theorem lhs_col (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
/-- the right index: its row is the contraction index, -/
theorem rhs_row (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
/-- its column the output column. -/
theorem rhs_col (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The stored block at entry `j = (p, q)`: the sum over `k` of `rows (p, k) · weights (k, q)` (the roundings to bf16
    are the identity on extended reals, the accumulator starts at zero), plus the bias row at `q` (the row's cast to
    its own shape is the identity; its broadcast down the rows reads row `0`). -/
theorem stored_apply (x0 : Vec Ideal S5000x128 .f32) (x1 : Vec Ideal S128x128 .f32) (x2 : Vec Ideal S1x128 .f32) (j : S5000x128.Idx) :
    k1_pay1 (F := Ideal) x0 x1 x2 j = (∑ k : Fin 128, x0 (blkLhs j k) * x1 (blkRhs j k)) + x2 (blkBias j) := by
  unfold k1_pay1
  refine congrArg₂ (· + ·) ?_ ?_
  · refine (Ideal.matmul_constant_zero_apply dot_S5000x128_S128x128_S5000x128_1_0_0_1_n_n none _ _ j).trans ?_
    rw [← Equiv.sum_comp (ValueIdx.contrEquiv1 dot_S5000x128_S128x128_S5000x128_1_0_0_1_n_n 128 rfl rfl).symm]
    refine Finset.sum_congr rfl fun k _ => ?_
    have hk := ValueIdx.contrEquiv1_symm_val dot_S5000x128_S128x128_S5000x128_1_0_0_1_n_n 128 rfl rfl k
    have el : dot_S5000x128_S128x128_S5000x128_1_0_0_1_n_n.lhsIdx j ((ValueIdx.contrEquiv1 dot_S5000x128_S128x128_S5000x128_1_0_0_1_n_n 128 rfl rfl).symm k) = blkLhs j k := funext fun a => Fin.ext (by
      match a with
      | ⟨0, _⟩ => exact lhs_row _ _
      | ⟨1, _⟩ => exact (lhs_col _ _).trans hk)
    have er : dot_S5000x128_S128x128_S5000x128_1_0_0_1_n_n.rhsIdx j ((ValueIdx.contrEquiv1 dot_S5000x128_S128x128_S5000x128_1_0_0_1_n_n 128 rfl rfl).symm k) = blkRhs j k := funext fun a => Fin.ext (by
      match a with
      | ⟨0, _⟩ => exact (rhs_row _ _).trans hk
      | ⟨1, _⟩ => exact rhs_col _ _)
    rw [el, er]
    exact congrArg₂ (· * ·) (congrFun (shapeCast_self x0 _) (blkLhs j k)) rfl
  · rw [shapeCast_self]
    exact broadcastTo_apply x2 _ j (blkBias j) (fun a => by
      match a with
      | ⟨0, _⟩ => rfl
      | ⟨1, _⟩ => rfl)

/-! ## From the blocks to the array -/

theorem origin : (![0, 0] : Fin 2 → Nat) = fun _ => 0 := funext fun a => by fin_cases a <;> rfl

/-- The printed index maps over the ten grid points: the left operand's and the output's row blocks move together,
    every other block index is zero, and the row block index is at most nine. -/
theorem grid_facts : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 9 :=
  (by decide +kernel : ∀ t : Fin grid1.N, _)

/-- Every row block is some grid point's. -/
theorem grid_onto : ∀ q : Fin 10, ∃ t : Fin cfg1.N, win1_3.index t (0 : Fin 2) = q.val :=
  (by decide +kernel : ∀ q : Fin 10, ∃ t : Fin grid1.N, win1_3.index t (0 : Fin 2) = q.val)

section
variable (V : (c : Dev nD) → (b : Ref sig .tc) → Buf (Elt Ideal) ((c : Thread nD τ).loc b))

/-- What grid point `t` writes back is block `t` of `product` of the arrays as the launch finds them: entry `(p, q)` of
    the block sits at row `5000·t + p`, and the rows loaded at `t` are the same rows of the left operand. -/
theorem flushed_eq (c : Dev nD) (t : Fin cfg1.N) :
    (dat1 (F := Ideal) V c).flushed 3 t
      = ((cfg1.win 3).blk t).view.read (Elt Ideal) (product (V c main_v49) (V c main_arg4) (V c main_v51)) := by
  show (cfg1.win 3).cut (grid1.coords t) ((dat1 V c).after 3 t) = _
  rw [after1_3]
  unfold out1_3
  rw [View.canon_unit_zero origin]
  simp only [View.ld_unit_zero (S := S5000x128) origin, View.ld_unit_zero (S := S128x128) origin, View.ld_unit_zero (S := S1x128) origin]
  obtain ⟨e0, e1, e2, e3, e4, e5, e6, e7⟩ := grid_facts t
  funext j
  show k1_pay1 (iblk1 V c 0 t) (iblk1 V c 1 t) (iblk1 V c 2 t) j
    = product (V c main_v49) (V c main_arg4) (V c main_v51) (((cfg1.win 3).blk t).view.emb j)
  refine (stored_apply (iblk1 V c 0 t) (iblk1 V c 1 t) (iblk1 V c 2 t) j).trans ?_
  unfold product
  refine congrArg₂ (· + ·) (Finset.sum_congr rfl fun k _ => congrArg₂ (· * ·) ?_ ?_) ?_
  · show V c main_v49 (((cfg1.win 0).blk t).view.emb (blkLhs j k)) = V c main_v49 (lhsAt (((cfg1.win 3).blk t).view.emb j) k)
    refine congrArg _ (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * k.val = k.val; omega
  · show V c main_arg4 (((cfg1.win 1).blk t).view.emb (blkRhs j k)) = V c main_arg4 (rhsAt (((cfg1.win 3).blk t).view.emb j) k)
    refine congrArg _ (funext fun a => Fin.ext ?_)
    match a with
    | ⟨0, _⟩ => show win1_1.index t (0 : Fin 2) * 128 + 1 * k.val = k.val; omega
    | ⟨1, _⟩ => show win1_1.index t (1 : Fin 2) * 128 + 1 * (j 1).val = win1_3.index t (1 : Fin 2) * 128 + 1 * (j 1).val; omega
  · show V c main_v51 (((cfg1.win 2).blk t).view.emb (blkBias j)) = V c main_v51 (biasAt (((cfg1.win 3).blk t).view.emb j))
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega

/-- An entry of the output array is in point `t`'s block iff each coordinate is in the block's range on its axis. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v52).slice (win1_3.rect t)).set ↔ _
  rw [View.set_slice_whole, Rect.mem_set_unit]
  exact Iff.rfl

/-- Row `r` lies in the block of the grid point whose row block index is `r / 5000`: the blocks tile the array. -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := grid_onto ⟨(i 0).val / 5000, by omega⟩
  have q0 : win1_3.index t (0 : Fin 2) = (i 0).val / 5000 := ht
  obtain ⟨-, -, -, -, -, -, e6, -⟩ := grid_facts t
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- THE OUTPUT ARRAY after the launch: `product` of the three input arrays as the launch found them. -/
theorem array_eq (c : Dev nD) :
    (dat1 (F := Ideal) V c).arrAt 3 cfg1.N = product (V c main_v49) (V c main_arg4) (V c main_v51) :=
  (dat1 (F := Ideal) V c).arrAt_eq_of_cover 3 _ (fun t _ => flushed_eq V c t) cover

end

end Cert.KernelIdeal.HiddenProjection

end
-- ==== Proof.HeadFour.lean ====
/-
  Launch 2 of the row-tiled linear kernel, read as ONE function of its three input arrays.

  The launch walks ten grid points; point `t` loads rows `5000·t … 5000·t + 4999` of the left operand
  (a `50000 × 128` array), the whole `128 × 4` weight matrix and the whole `1 × 4` bias row, and stores
  `rows · weights + bias` into rows `5000·t … 5000·t + 4999` of the `50000 × 4` output. Over the extended reals the
  two roundings to bf16 are the identity and the matrix unit's product into a zero accumulator is the plain sum
  over the contracted axis, so the block stored at point `t` is block `t` of

      product x w z (r, q) = (∑ k, x (r, k) · w (k, q)) + z (0, q),

  a function of the whole arrays. The ten row blocks tile the output (row `r` is in block `r / 5000`), hence after the
  launch the output array is `product` of the arrays the launch found.
-/
import proofs.«104334_j12687333392400_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.HeadFour

open Cert.KernelIdeal Cert.KernelIdeal.Gen Idealize.ShloMosaic Idealize.ShloMosaic.TcCoe Idealize.SL.Sem
open Idealize.ShloMosaic.Pipeline (Dat)

/-! ## The whole-array function -/

/-- Entry `(r, k)` of the left operand, for output entry `i = (r, q)`. -/
abbrev lhsAt (i : S50000x4.Idx) (k : Fin 128) : S50000x128.Idx := fun a => match a with
  | ⟨0, _⟩ => ⟨(i 0).val, (i 0).isLt⟩
  | ⟨1, _⟩ => ⟨k.val, k.isLt⟩
/-- Entry `(k, q)` of the weights, for output entry `i = (r, q)`. -/
abbrev rhsAt (i : S50000x4.Idx) (k : Fin 128) : S128x4.Idx := fun a => match a with
  | ⟨0, _⟩ => ⟨k.val, k.isLt⟩
  | ⟨1, _⟩ => ⟨(i 1).val, (i 1).isLt⟩
/-- Entry `(0, q)` of the bias row, for output entry `i = (r, q)`. -/
abbrev biasAt (i : S50000x4.Idx) : S1x4.Idx := fun a => match a with
  | ⟨0, _⟩ => ⟨0, Nat.one_pos⟩
  | ⟨1, _⟩ => ⟨(i 1).val, (i 1).isLt⟩

/-- `x · w` plus the bias row `z` on every row, entry by entry over the extended reals. -/
def product (x : Vec Ideal S50000x128 .f32) (w : Vec Ideal S128x4 .f32) (z : Vec Ideal S1x4 .f32) : Vec Ideal S50000x4 .f32 :=
  fun i => (∑ k : Fin 128, x (lhsAt i k) * w (rhsAt i k)) + z (biasAt i)

/-! ## One block: what the body stores, entry by entry -/

/-- The same three entries inside one `5000`-row block, for the block's entry `j = (p, q)`. -/
abbrev blkLhs (j : S5000x4.Idx) (k : Fin 128) : S5000x128.Idx := fun a => match a with
  | ⟨0, _⟩ => ⟨(j 0).val, (j 0).isLt⟩
  | ⟨1, _⟩ => ⟨k.val, k.isLt⟩
abbrev blkRhs (j : S5000x4.Idx) (k : Fin 128) : S128x4.Idx := fun a => match a with
  | ⟨0, _⟩ => ⟨k.val, k.isLt⟩
  | ⟨1, _⟩ => ⟨(j 1).val, (j 1).isLt⟩
abbrev blkBias (j : S5000x4.Idx) : S1x4.Idx := fun a => match a with
  | ⟨0, _⟩ => ⟨0, Nat.one_pos⟩
  | ⟨1, _⟩ => ⟨(j 1).val, (j 1).isLt⟩

/-- The block product's left index: its row is the output row, -/
theorem lhs_row (j : S5000x4.Idx) (q : dot_S5000x128_S128x4_S5000x4_1_0_0_1_n_n.contr.Idx) :
    (dot_S5000x128_S128x4_S5000x4_1_0_0_1_n_n.lhsIdx j q 0).val = (j 0).val := by
  unfold DotDims.lhsIdx
  rw [dif_neg (show ¬(0 : Fin S5000x128.rank) ∈ dot_S5000x128_S128x4_S5000x4_1_0_0_1_n_n.lhsBatch by decide), dif_pos (show (0 : Fin S5000x128.rank) ∈ dot_S5000x128_S128x4_S5000x4_1_0_0_1_n_n.lhsNonContracting by decide)]
  rfl
/-- its column the contraction index; -/
theorem lhs_col (j : S5000x4.Idx) (q : dot_S5000x128_S128x4_S5000x4_1_0_0_1_n_n.contr.Idx) :
    (dot_S5000x128_S128x4_S5000x4_1_0_0_1_n_n.lhsIdx j q 1).val = (q ⟨0, by decide⟩).val :=
  dot_S5000x128_S128x4_S5000x4_1_0_0_1_n_n.lhsIdx_val_of_single rfl j q
/-- the right index: its row is the contraction index, -/
theorem rhs_row (j : S5000x4.Idx) (q : dot_S5000x128_S128x4_S5000x4_1_0_0_1_n_n.contr.Idx) :
    (dot_S5000x128_S128x4_S5000x4_1_0_0_1_n_n.rhsIdx j q 0).val = (q ⟨0, by decide⟩).val :=
  dot_S5000x128_S128x4_S5000x4_1_0_0_1_n_n.rhsIdx_val_of_single rfl j q
/-- its column the output column. -/
theorem rhs_col (j : S5000x4.Idx) (q : dot_S5000x128_S128x4_S5000x4_1_0_0_1_n_n.contr.Idx) :
    (dot_S5000x128_S128x4_S5000x4_1_0_0_1_n_n.rhsIdx j q 1).val = (j 1).val := by
  unfold DotDims.rhsIdx
  rw [dif_neg (show ¬(1 : Fin S128x4.rank) ∈ dot_S5000x128_S128x4_S5000x4_1_0_0_1_n_n.rhsBatch by decide), dif_pos (show (1 : Fin S128x4.rank) ∈ dot_S5000x128_S128x4_S5000x4_1_0_0_1_n_n.rhsNonContracting by decide)]
  rfl

/-- The stored block at entry `j = (p, q)`: the sum over `k` of `rows (p, k) · weights (k, q)` (the roundings to bf16
    are the identity on extended reals, the accumulator starts at zero), plus the bias row at `q` (the row's cast to
    its own shape is the identity; its broadcast down the rows reads row `0`). -/
theorem stored_apply (x0 : Vec Ideal S5000x128 .f32) (x1 : Vec Ideal S128x4 .f32) (x2 : Vec Ideal S1x4 .f32) (j : S5000x4.Idx) :
    k2_pay1 (F := Ideal) x0 x1 x2 j = (∑ k : Fin 128, x0 (blkLhs j k) * x1 (blkRhs j k)) + x2 (blkBias j) := by
  unfold k2_pay1
  refine congrArg₂ (· + ·) ?_ ?_
  · refine (Ideal.matmul_constant_zero_apply dot_S5000x128_S128x4_S5000x4_1_0_0_1_n_n none _ _ j).trans ?_
    rw [← Equiv.sum_comp (ValueIdx.contrEquiv1 dot_S5000x128_S128x4_S5000x4_1_0_0_1_n_n 128 rfl rfl).symm]
    refine Finset.sum_congr rfl fun k _ => ?_
    have hk := ValueIdx.contrEquiv1_symm_val dot_S5000x128_S128x4_S5000x4_1_0_0_1_n_n 128 rfl rfl k
    have el : dot_S5000x128_S128x4_S5000x4_1_0_0_1_n_n.lhsIdx j ((ValueIdx.contrEquiv1 dot_S5000x128_S128x4_S5000x4_1_0_0_1_n_n 128 rfl rfl).symm k) = blkLhs j k := funext fun a => Fin.ext (by
      match a with
      | ⟨0, _⟩ => exact lhs_row _ _
      | ⟨1, _⟩ => exact (lhs_col _ _).trans hk)
    have er : dot_S5000x128_S128x4_S5000x4_1_0_0_1_n_n.rhsIdx j ((ValueIdx.contrEquiv1 dot_S5000x128_S128x4_S5000x4_1_0_0_1_n_n 128 rfl rfl).symm k) = blkRhs j k := funext fun a => Fin.ext (by
      match a with
      | ⟨0, _⟩ => exact (rhs_row _ _).trans hk
      | ⟨1, _⟩ => exact rhs_col _ _)
    rw [el, er]
    exact congrArg₂ (· * ·) (congrFun (shapeCast_self x0 _) (blkLhs j k)) rfl
  · rw [shapeCast_self]
    exact broadcastTo_apply x2 _ j (blkBias j) (fun a => by
      match a with
      | ⟨0, _⟩ => rfl
      | ⟨1, _⟩ => rfl)

/-! ## From the blocks to the array -/

theorem origin : (![0, 0] : Fin 2 → Nat) = fun _ => 0 := funext fun a => by fin_cases a <;> rfl

/-- The printed index maps over the ten grid points: the left operand's and the output's row blocks move together,
    every other block index is zero, and the row block index is at most nine. -/
theorem grid_facts : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 9 :=
  (by decide +kernel : ∀ t : Fin grid2.N, _)

/-- Every row block is some grid point's. -/
theorem grid_onto : ∀ q : Fin 10, ∃ t : Fin cfg2.N, win2_3.index t (0 : Fin 2) = q.val :=
  (by decide +kernel : ∀ q : Fin 10, ∃ t : Fin grid2.N, win2_3.index t (0 : Fin 2) = q.val)

section
variable (V : (c : Dev nD) → (b : Ref sig .tc) → Buf (Elt Ideal) ((c : Thread nD τ).loc b))

/-- What grid point `t` writes back is block `t` of `product` of the arrays as the launch finds them: entry `(p, q)` of
    the block sits at row `5000·t + p`, and the rows loaded at `t` are the same rows of the left operand. -/
theorem flushed_eq (c : Dev nD) (t : Fin cfg2.N) :
    (dat2 (F := Ideal) V c).flushed 3 t
      = ((cfg2.win 3).blk t).view.read (Elt Ideal) (product (V c main_v68) (V c main_arg6) (V c main_v69)) := by
  show (cfg2.win 3).cut (grid2.coords t) ((dat2 V c).after 3 t) = _
  rw [after2_3]
  unfold out2_3
  rw [View.canon_unit_zero origin]
  simp only [View.ld_unit_zero (S := S5000x128) origin, View.ld_unit_zero (S := S128x4) origin, View.ld_unit_zero (S := S1x4) origin]
  obtain ⟨e0, e1, e2, e3, e4, e5, e6, e7⟩ := grid_facts t
  funext j
  show k2_pay1 (iblk2 V c 0 t) (iblk2 V c 1 t) (iblk2 V c 2 t) j
    = product (V c main_v68) (V c main_arg6) (V c main_v69) (((cfg2.win 3).blk t).view.emb j)
  refine (stored_apply (iblk2 V c 0 t) (iblk2 V c 1 t) (iblk2 V c 2 t) j).trans ?_
  unfold product
  refine congrArg₂ (· + ·) (Finset.sum_congr rfl fun k _ => congrArg₂ (· * ·) ?_ ?_) ?_
  · show V c main_v68 (((cfg2.win 0).blk t).view.emb (blkLhs j k)) = V c main_v68 (lhsAt (((cfg2.win 3).blk t).view.emb j) k)
    refine congrArg _ (funext fun a => Fin.ext ?_)
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * k.val = k.val; omega
  · show V c main_arg6 (((cfg2.win 1).blk t).view.emb (blkRhs j k)) = V c main_arg6 (rhsAt (((cfg2.win 3).blk t).view.emb j) k)
    refine congrArg _ (funext fun a => Fin.ext ?_)
    match a with
    | ⟨0, _⟩ => show win2_1.index t (0 : Fin 2) * 128 + 1 * k.val = k.val; omega
    | ⟨1, _⟩ => show win2_1.index t (1 : Fin 2) * 4 + 1 * (j 1).val = win2_3.index t (1 : Fin 2) * 4 + 1 * (j 1).val; omega
  · show V c main_v69 (((cfg2.win 2).blk t).view.emb (blkBias j)) = V c main_v69 (biasAt (((cfg2.win 3).blk t).view.emb j))
    refine congrArg _ (funext fun a => Fin.ext ?_)
    match a with
    | ⟨0, _⟩ => show win2_2.index t (0 : Fin 2) * 1 + 1 * 0 = 0; omega
    | ⟨1, _⟩ => show win2_2.index t (1 : Fin 2) * 4 + 1 * (j 1).val = win2_3.index t (1 : Fin 2) * 4 + 1 * (j 1).val; omega

/-- An entry of the output array is in point `t`'s block iff each coordinate is in the block's range on its axis. -/
theorem mem_blk (t : Fin cfg2.N) (i : S50000x4.Idx) :
    i ∈ ((cfg2.win 3).blk t).view.set ↔ ∀ a : Fin 2, win2_3.index t a * S5000x4.size a ≤ (i a).val ∧ (i a).val < win2_3.index t a * S5000x4.size a + S5000x4.size a := by
  show i ∈ ((View.whole main_v70).slice (win2_3.rect t)).set ↔ _
  rw [View.set_slice_whole, Rect.mem_set_unit]
  exact Iff.rfl

/-- Row `r` lies in the block of the grid point whose row block index is `r / 5000`: the blocks tile the array. -/
theorem cover (i : S50000x4.Idx) :
    ∃ t : Fin cfg2.N, (cfg2.win 3).flush t = true ∧ i ∈ ((cfg2.win 3).blk t).view.set := by
  have hi0 : (i 0).val < 50000 := (i 0).isLt
  have hi1 : (i 1).val < 4 := (i 1).isLt
  obtain ⟨t, ht⟩ := grid_onto ⟨(i 0).val / 5000, by omega⟩
  have q0 : win2_3.index t (0 : Fin 2) = (i 0).val / 5000 := ht
  obtain ⟨-, -, -, -, -, -, e6, -⟩ := grid_facts t
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 4 ≤ (i 1).val ∧ (i 1).val < win2_3.index t (1 : Fin 2) * 4 + 4; omega

/-- THE OUTPUT ARRAY after the launch: `product` of the three input arrays as the launch found them. -/
theorem array_eq (c : Dev nD) :
    (dat2 (F := Ideal) V c).arrAt 3 cfg2.N = product (V c main_v68) (V c main_arg6) (V c main_v69) :=
  (dat2 (F := Ideal) V c).arrAt_eq_of_cover 3 _ (fun t _ => flushed_eq V c t) cover

end

end Cert.KernelIdeal.HeadFour

end
-- ==== Proof.HeadThree.lean ====
/-
  Launch 3 of the row-tiled linear kernel, read as ONE function of its three input arrays.

  The launch walks ten grid points; point `t` loads rows `5000·t … 5000·t + 4999` of the left operand
  (a `50000 × 128` array), the whole `128 × 3` weight matrix and the whole `1 × 3` bias row, and stores
  `rows · weights + bias` into rows `5000·t … 5000·t + 4999` of the `50000 × 3` output. Over the extended reals the
  two roundings to bf16 are the identity and the matrix unit's product into a zero accumulator is the plain sum
  over the contracted axis, so the block stored at point `t` is block `t` of

      product x w z (r, q) = (∑ k, x (r, k) · w (k, q)) + z (0, q),

  a function of the whole arrays. The ten row blocks tile the output (row `r` is in block `r / 5000`), hence after the
  launch the output array is `product` of the arrays the launch found.
-/
import proofs.«104334_j12687333392400_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.HeadThree

open Cert.KernelIdeal Cert.KernelIdeal.Gen Idealize.ShloMosaic Idealize.ShloMosaic.TcCoe Idealize.SL.Sem
open Idealize.ShloMosaic.Pipeline (Dat)

/-! ## The whole-array function -/

/-- Entry `(r, k)` of the left operand, for output entry `i = (r, q)`. -/
abbrev lhsAt (i : S50000x3.Idx) (k : Fin 128) : S50000x128.Idx := fun a => match a with
  | ⟨0, _⟩ => ⟨(i 0).val, (i 0).isLt⟩
  | ⟨1, _⟩ => ⟨k.val, k.isLt⟩
/-- Entry `(k, q)` of the weights, for output entry `i = (r, q)`. -/
abbrev rhsAt (i : S50000x3.Idx) (k : Fin 128) : S128x3.Idx := fun a => match a with
  | ⟨0, _⟩ => ⟨k.val, k.isLt⟩
  | ⟨1, _⟩ => ⟨(i 1).val, (i 1).isLt⟩
/-- Entry `(0, q)` of the bias row, for output entry `i = (r, q)`. -/
abbrev biasAt (i : S50000x3.Idx) : S1x3.Idx := fun a => match a with
  | ⟨0, _⟩ => ⟨0, Nat.one_pos⟩
  | ⟨1, _⟩ => ⟨(i 1).val, (i 1).isLt⟩

/-- `x · w` plus the bias row `z` on every row, entry by entry over the extended reals. -/
def product (x : Vec Ideal S50000x128 .f32) (w : Vec Ideal S128x3 .f32) (z : Vec Ideal S1x3 .f32) : Vec Ideal S50000x3 .f32 :=
  fun i => (∑ k : Fin 128, x (lhsAt i k) * w (rhsAt i k)) + z (biasAt i)

/-! ## One block: what the body stores, entry by entry -/

/-- The same three entries inside one `5000`-row block, for the block's entry `j = (p, q)`. -/
abbrev blkLhs (j : S5000x3.Idx) (k : Fin 128) : S5000x128.Idx := fun a => match a with
  | ⟨0, _⟩ => ⟨(j 0).val, (j 0).isLt⟩
  | ⟨1, _⟩ => ⟨k.val, k.isLt⟩
abbrev blkRhs (j : S5000x3.Idx) (k : Fin 128) : S128x3.Idx := fun a => match a with
  | ⟨0, _⟩ => ⟨k.val, k.isLt⟩
  | ⟨1, _⟩ => ⟨(j 1).val, (j 1).isLt⟩
abbrev blkBias (j : S5000x3.Idx) : S1x3.Idx := fun a => match a with
  | ⟨0, _⟩ => ⟨0, Nat.one_pos⟩
  | ⟨1, _⟩ => ⟨(j 1).val, (j 1).isLt⟩

/-- The block product's left index: its row is the output row, -/
theorem lhs_row (j : S5000x3.Idx) (q : dot_S5000x128_S128x3_S5000x3_1_0_0_1_n_n.contr.Idx) :
    (dot_S5000x128_S128x3_S5000x3_1_0_0_1_n_n.lhsIdx j q 0).val = (j 0).val := by
  unfold DotDims.lhsIdx
  rw [dif_neg (show ¬(0 : Fin S5000x128.rank) ∈ dot_S5000x128_S128x3_S5000x3_1_0_0_1_n_n.lhsBatch by decide), dif_pos (show (0 : Fin S5000x128.rank) ∈ dot_S5000x128_S128x3_S5000x3_1_0_0_1_n_n.lhsNonContracting by decide)]
  rfl
/-- its column the contraction index; -/
theorem lhs_col (j : S5000x3.Idx) (q : dot_S5000x128_S128x3_S5000x3_1_0_0_1_n_n.contr.Idx) :
    (dot_S5000x128_S128x3_S5000x3_1_0_0_1_n_n.lhsIdx j q 1).val = (q ⟨0, by decide⟩).val :=
  dot_S5000x128_S128x3_S5000x3_1_0_0_1_n_n.lhsIdx_val_of_single rfl j q
/-- the right index: its row is the contraction index, -/
theorem rhs_row (j : S5000x3.Idx) (q : dot_S5000x128_S128x3_S5000x3_1_0_0_1_n_n.contr.Idx) :
    (dot_S5000x128_S128x3_S5000x3_1_0_0_1_n_n.rhsIdx j q 0).val = (q ⟨0, by decide⟩).val :=
  dot_S5000x128_S128x3_S5000x3_1_0_0_1_n_n.rhsIdx_val_of_single rfl j q
/-- its column the output column. -/
theorem rhs_col (j : S5000x3.Idx) (q : dot_S5000x128_S128x3_S5000x3_1_0_0_1_n_n.contr.Idx) :
    (dot_S5000x128_S128x3_S5000x3_1_0_0_1_n_n.rhsIdx j q 1).val = (j 1).val := by
  unfold DotDims.rhsIdx
  rw [dif_neg (show ¬(1 : Fin S128x3.rank) ∈ dot_S5000x128_S128x3_S5000x3_1_0_0_1_n_n.rhsBatch by decide), dif_pos (show (1 : Fin S128x3.rank) ∈ dot_S5000x128_S128x3_S5000x3_1_0_0_1_n_n.rhsNonContracting by decide)]
  rfl

/-- The stored block at entry `j = (p, q)`: the sum over `k` of `rows (p, k) · weights (k, q)` (the roundings to bf16
    are the identity on extended reals, the accumulator starts at zero), plus the bias row at `q` (the row's cast to
    its own shape is the identity; its broadcast down the rows reads row `0`). -/
theorem stored_apply (x0 : Vec Ideal S5000x128 .f32) (x1 : Vec Ideal S128x3 .f32) (x2 : Vec Ideal S1x3 .f32) (j : S5000x3.Idx) :
    k3_pay1 (F := Ideal) x0 x1 x2 j = (∑ k : Fin 128, x0 (blkLhs j k) * x1 (blkRhs j k)) + x2 (blkBias j) := by
  unfold k3_pay1
  refine congrArg₂ (· + ·) ?_ ?_
  · refine (Ideal.matmul_constant_zero_apply dot_S5000x128_S128x3_S5000x3_1_0_0_1_n_n none _ _ j).trans ?_
    rw [← Equiv.sum_comp (ValueIdx.contrEquiv1 dot_S5000x128_S128x3_S5000x3_1_0_0_1_n_n 128 rfl rfl).symm]
    refine Finset.sum_congr rfl fun k _ => ?_
    have hk := ValueIdx.contrEquiv1_symm_val dot_S5000x128_S128x3_S5000x3_1_0_0_1_n_n 128 rfl rfl k
    have el : dot_S5000x128_S128x3_S5000x3_1_0_0_1_n_n.lhsIdx j ((ValueIdx.contrEquiv1 dot_S5000x128_S128x3_S5000x3_1_0_0_1_n_n 128 rfl rfl).symm k) = blkLhs j k := funext fun a => Fin.ext (by
      match a with
      | ⟨0, _⟩ => exact lhs_row _ _
      | ⟨1, _⟩ => exact (lhs_col _ _).trans hk)
    have er : dot_S5000x128_S128x3_S5000x3_1_0_0_1_n_n.rhsIdx j ((ValueIdx.contrEquiv1 dot_S5000x128_S128x3_S5000x3_1_0_0_1_n_n 128 rfl rfl).symm k) = blkRhs j k := funext fun a => Fin.ext (by
      match a with
      | ⟨0, _⟩ => exact (rhs_row _ _).trans hk
      | ⟨1, _⟩ => exact rhs_col _ _)
    rw [el, er]
    exact congrArg₂ (· * ·) (congrFun (shapeCast_self x0 _) (blkLhs j k)) rfl
  · rw [shapeCast_self]
    exact broadcastTo_apply x2 _ j (blkBias j) (fun a => by
      match a with
      | ⟨0, _⟩ => rfl
      | ⟨1, _⟩ => rfl)

/-! ## From the blocks to the array -/

theorem origin : (![0, 0] : Fin 2 → Nat) = fun _ => 0 := funext fun a => by fin_cases a <;> rfl

/-- The printed index maps over the ten grid points: the left operand's and the output's row blocks move together,
    every other block index is zero, and the row block index is at most nine. -/
theorem grid_facts : ∀ t : Fin cfg3.N, win3_0.index t (0 : Fin 2) = win3_3.index t (0 : Fin 2)
    ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (1 : Fin 2) = 0 ∧ win3_3.index t (0 : Fin 2) ≤ 9 :=
  (by decide +kernel : ∀ t : Fin grid3.N, _)

/-- Every row block is some grid point's. -/
theorem grid_onto : ∀ q : Fin 10, ∃ t : Fin cfg3.N, win3_3.index t (0 : Fin 2) = q.val :=
  (by decide +kernel : ∀ q : Fin 10, ∃ t : Fin grid3.N, win3_3.index t (0 : Fin 2) = q.val)

section
variable (V : (c : Dev nD) → (b : Ref sig .tc) → Buf (Elt Ideal) ((c : Thread nD τ).loc b))

/-- What grid point `t` writes back is block `t` of `product` of the arrays as the launch finds them: entry `(p, q)` of
    the block sits at row `5000·t + p`, and the rows loaded at `t` are the same rows of the left operand. -/
theorem flushed_eq (c : Dev nD) (t : Fin cfg3.N) :
    (dat3 (F := Ideal) V c).flushed 3 t
      = ((cfg3.win 3).blk t).view.read (Elt Ideal) (product (V c main_v68) (V c main_arg8) (V c main_v71)) := by
  show (cfg3.win 3).cut (grid3.coords t) ((dat3 V c).after 3 t) = _
  rw [after3_3]
  unfold out3_3
  rw [View.canon_unit_zero origin]
  simp only [View.ld_unit_zero (S := S5000x128) origin, View.ld_unit_zero (S := S128x3) origin, View.ld_unit_zero (S := S1x3) origin]
  obtain ⟨e0, e1, e2, e3, e4, e5, e6, e7⟩ := grid_facts t
  funext j
  show k3_pay1 (iblk3 V c 0 t) (iblk3 V c 1 t) (iblk3 V c 2 t) j
    = product (V c main_v68) (V c main_arg8) (V c main_v71) (((cfg3.win 3).blk t).view.emb j)
  refine (stored_apply (iblk3 V c 0 t) (iblk3 V c 1 t) (iblk3 V c 2 t) j).trans ?_
  unfold product
  refine congrArg₂ (· + ·) (Finset.sum_congr rfl fun k _ => congrArg₂ (· * ·) ?_ ?_) ?_
  · show V c main_v68 (((cfg3.win 0).blk t).view.emb (blkLhs j k)) = V c main_v68 (lhsAt (((cfg3.win 3).blk t).view.emb j) k)
    refine congrArg _ (funext fun a => Fin.ext ?_)
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 128 + 1 * k.val = k.val; omega
  · show V c main_arg8 (((cfg3.win 1).blk t).view.emb (blkRhs j k)) = V c main_arg8 (rhsAt (((cfg3.win 3).blk t).view.emb j) k)
    refine congrArg _ (funext fun a => Fin.ext ?_)
    match a with
    | ⟨0, _⟩ => show win3_1.index t (0 : Fin 2) * 128 + 1 * k.val = k.val; omega
    | ⟨1, _⟩ => show win3_1.index t (1 : Fin 2) * 3 + 1 * (j 1).val = win3_3.index t (1 : Fin 2) * 3 + 1 * (j 1).val; omega
  · show V c main_v71 (((cfg3.win 2).blk t).view.emb (blkBias j)) = V c main_v71 (biasAt (((cfg3.win 3).blk t).view.emb j))
    refine congrArg _ (funext fun a => Fin.ext ?_)
    match a with
    | ⟨0, _⟩ => show win3_2.index t (0 : Fin 2) * 1 + 1 * 0 = 0; omega
    | ⟨1, _⟩ => show win3_2.index t (1 : Fin 2) * 3 + 1 * (j 1).val = win3_3.index t (1 : Fin 2) * 3 + 1 * (j 1).val; omega

/-- An entry of the output array is in point `t`'s block iff each coordinate is in the block's range on its axis. -/
theorem mem_blk (t : Fin cfg3.N) (i : S50000x3.Idx) :
    i ∈ ((cfg3.win 3).blk t).view.set ↔ ∀ a : Fin 2, win3_3.index t a * S5000x3.size a ≤ (i a).val ∧ (i a).val < win3_3.index t a * S5000x3.size a + S5000x3.size a := by
  show i ∈ ((View.whole main_v72).slice (win3_3.rect t)).set ↔ _
  rw [View.set_slice_whole, Rect.mem_set_unit]
  exact Iff.rfl

/-- Row `r` lies in the block of the grid point whose row block index is `r / 5000`: the blocks tile the array. -/
theorem cover (i : S50000x3.Idx) :
    ∃ t : Fin cfg3.N, (cfg3.win 3).flush t = true ∧ i ∈ ((cfg3.win 3).blk t).view.set := by
  have hi0 : (i 0).val < 50000 := (i 0).isLt
  have hi1 : (i 1).val < 3 := (i 1).isLt
  obtain ⟨t, ht⟩ := grid_onto ⟨(i 0).val / 5000, by omega⟩
  have q0 : win3_3.index t (0 : Fin 2) = (i 0).val / 5000 := ht
  obtain ⟨-, -, -, -, -, -, e6, -⟩ := grid_facts t
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 3 ≤ (i 1).val ∧ (i 1).val < win3_3.index t (1 : Fin 2) * 3 + 3; omega

/-- THE OUTPUT ARRAY after the launch: `product` of the three input arrays as the launch found them. -/
theorem array_eq (c : Dev nD) :
    (dat3 (F := Ideal) V c).arrAt 3 cfg3.N = product (V c main_v68) (V c main_arg8) (V c main_v71) :=
  (dat3 (F := Ideal) V c).arrAt_eq_of_cover 3 _ (fun t _ => flushed_eq V c t) cover

end

end Cert.KernelIdeal.HeadThree

end
-- ==== Proof.GraphLayer.lean ====
/-
  The graph part of both programs, as named functions of the arrays they read — the host operations that the kernel's
  program and the reference apply identically, stated once so that neither side ever opens them.

  The model is a two-layer graph convolution on 50000 nodes and 800000 directed edges. With self loops appended, edge
  `j` goes from `sources j` to `targets j` (850000 edges). A node's degree counts the edges that END at it; its
  normaliser is `1 / sqrt degree` where the degree is positive and `0` elsewhere; edge `j` weighs
  `normaliser (sources j) · normaliser (targets j)`. One layer sends every node's feature row along every edge, scaled by
  the edge's weight, sums what arrives at each node, and adds a bias row:

      propagate h b (v, f) = (∑ over edges j ending at v, h (sources j, f) · weight j) + b f.

  The sums over edges are the host's scatter-add, the reads along edges its gather; here they stay the host's
  operations, composed exactly as both printed programs compose them.
-/
import proofs.«104334_j12687333392400_1_alg».proof.KernelIdeal
import proofs.«104334_j12687333392400_1_alg».proof.Proof.Gen.KernelIdeal

noncomputable section

namespace Cert.KernelIdeal.Graph

open Cert.KernelIdeal Cert.KernelIdeal.Facts₀ Cert.KernelIdeal.Facts Idealize.ShloMosaic

variable {F : FTy → Type} [FloatOps F]

/-- The contents of a buffer of shape `s` and element type `e`. -/
abbrev Arr (F : FTy → Type) (s : Shape) (e : EltTy) : Type := (⟨s, e⟩ : BufTy).Contents (Elt F)

/-- Where each of the 850000 edges starts: row 0 of the edge list, then the self loops `0 … 49999`. -/
def sources (e : Arr F S2x800000 .i32) : Arr F S850000 .i32 :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- Where each edge ends: row 1 of the edge list, then the self loops. -/
def targets (e : Arr F S2x800000 .i32) : Arr F S850000 .i32 :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A node index read the way an array index is: a negative one counts from the end (`+ 50000`). -/
def fromEnd (idx : Arr F S850000 .i32) : Arr F S850000 .i32 :=
  select (cmpi .slt idx (broadcastInDim S850000 ![] bcast_S_S850000 (constantI S_ 32 0#32))) (addi idx (broadcastInDim S850000 ![] bcast_S_S850000 (constantI S_ 32 50000#32))) idx

/-- The number of edges ending at each node: ones summed into a zero vector at the edges' targets. -/
def degree (e : Arr F S2x800000 .i32) : Arr F S50000 .f32 :=
  Host.scatterAdd scatter_S50000_S850000x1_S850000_n_0_0_1 (broadcastInDim S50000 ![] bcast_S_S50000 (constant S_ .f32 0x00000000#32)) (broadcastInDim S850000x1 ![0] bcast_S850000_S850000x1_0 (targets e)) (broadcastInDim S850000 ![] bcast_S_S850000 (constant S_ .f32 0x3F800000#32))

/-- `1 / sqrt degree` where the degree is positive, zero elsewhere. -/
def normaliser (e : Arr F S2x800000 .i32) : Arr F S50000 .f32 :=
  select (cmpf .ogt (degree e) (broadcastInDim S50000 ![] bcast_S_S50000 (constant S_ .f32 0x00000000#32))) (Host.rsqrt (degree e)) (broadcastInDim S50000 ![] bcast_S_S50000 (id (constant S_ .f32 0x00000000#32)))

/-- An edge's weight: the product of the normalisers of its two ends. -/
def weight (e : Arr F S2x800000 .i32) : Arr F S850000 .f32 :=
  mulf (Host.gather gather_S50000_S850000x1_S850000_n_0_n_n_0_1_1 (normaliser e) (broadcastInDim S850000x1 ![0] bcast_S850000_S850000x1_0 (fromEnd (sources e)))) (Host.gather gather_S50000_S850000x1_S850000_n_0_n_n_0_1_1 (normaliser e) (broadcastInDim S850000x1 ![0] bcast_S850000_S850000x1_0 (fromEnd (targets e))))

/-- One layer over GIVEN edge ends and weights: each node's row `h` sent along each edge scaled by the edge's weight,
    summed at the edge's target, plus the bias row `b`. -/
def propagateAlong (src dst : Arr F S850000 .i32) (wt : Arr F S850000 .f32) (h : Arr F S50000x128 .f32) (b : Arr F S128 .f32) : Arr F S50000x128 .f32 :=
  addf (Host.scatterAdd scatter_S50000x128_S850000x1_S850000x128_1_0_0_1 (broadcastInDim S50000x128 ![] bcast_S_S50000x128 (constant S_ .f32 0x00000000#32)) (broadcastInDim S850000x1 ![0] bcast_S850000_S850000x1_0 dst) (mulf (Host.gather gather_S50000x128_S850000x1_S850000x128_1_0_n_n_0_1_1128 h (broadcastInDim S850000x1 ![0] bcast_S850000_S850000x1_0 (fromEnd src))) (broadcastInDim S850000x128 ![0, 1] bcast_S850000x1_S850000x128_0_1 (broadcastInDim S850000x1 ![0] bcast_S850000_S850000x1_0 wt)))) (broadcastInDim S50000x128 ![0, 1] bcast_S1x128_S50000x128_0_1 (broadcastInDim S1x128 ![1] bcast_S128_S1x128_1 b))

/-- One layer of the model on the edge list `e`. -/
def propagate (e : Arr F S2x800000 .i32) (h : Arr F S50000x128 .f32) (b : Arr F S128 .f32) : Arr F S50000x128 .f32 :=
  propagateAlong (sources e) (targets e) (weight e) h b

/-- The positive part, entry by entry. -/
def rectified (h : Arr F S50000x128 .f32) : Arr F S50000x128 .f32 :=
  maximumf h (broadcastInDim S50000x128 ![] bcast_S_S50000x128 (constant S_ .f32 0x00000000#32))

/-- The all-zero bias row the kernel's program hands to the two inner products. -/
def zeroRow : Arr F S1x128 .f32 :=
  shapeCast _ (broadcastInDim S128 ![] bcast_S_S128 (constant S_ .f32 0x00000000#32)) shapeCasts_S128_S1x128

end Cert.KernelIdeal.Graph

end
-- ==== Proof.Model.lean ====
/-
  The three results of the model as functions of the ten argument arrays, over the extended reals or any float
  values: the node features after two graph layers (each a product with a weight matrix, then the propagation of
  Proof/GraphLayer.lean; the positive part between the two), and the two score heads (a product with a narrow matrix
  plus a bias on every row). The products are the host's whole-array contraction `∑ k, a (r, k) · w (k, q)`, in the
  spelling of the reference program; both programs' results are stated against these three functions.
-/
import proofs.«104334_j12687333392400_1_alg».proof.Proof.GraphLayer
import proofs.«104334_j12687333392400_1_alg».proof.ReferenceIdeal
import proofs.«104334_j12687333392400_1_alg».proof.Proof.Gen.ReferenceIdeal

noncomputable section

namespace Cert.Model

open Idealize.ShloMosaic Cert.KernelIdeal.Graph
open Cert.ReferenceIdeal.Facts₀ Cert.ReferenceIdeal.Facts

variable {F : FTy → Type} [FloatOps F]

/-- The node features after both layers: `propagate (relu (propagate (x · W1) b1) · W2) b2`. -/
def features (x : Arr F Cert.KernelIdeal.S50000x256 .f32) (e : Arr F Cert.KernelIdeal.S2x800000 .i32)
    (w1 : Arr F Cert.KernelIdeal.S256x128 .f32) (b1 : Arr F Cert.KernelIdeal.S128 .f32)
    (w2 : Arr F Cert.KernelIdeal.S128x128 .f32) (b2 : Arr F Cert.KernelIdeal.S128 .f32) : Arr F Cert.KernelIdeal.S50000x128 .f32 :=
  propagate e (Host.dotGeneral Cert.ReferenceIdeal.dot_S50000x128_S128x128_S50000x128_1_0_0_1_n_n none (rectified (propagate e (Host.dotGeneral Cert.ReferenceIdeal.dot_S50000x256_S256x128_S50000x128_1_0_0_1_n_n none x w1) b1)) w2) b2

/-- The four-class scores: `h · Wh1 + bh1` on every row. -/
def scoresFour (h : Arr F Cert.KernelIdeal.S50000x128 .f32) (w : Arr F Cert.KernelIdeal.S128x4 .f32) (b : Arr F Cert.KernelIdeal.S4 .f32) :
    Arr F Cert.KernelIdeal.S50000x4 .f32 :=
  addf (Host.dotGeneral Cert.ReferenceIdeal.dot_S50000x128_S128x4_S50000x4_1_0_0_1_n_n none h w) (broadcastInDim Cert.ReferenceIdeal.S50000x4 ![0, 1] bcast_S1x4_S50000x4_0_1 (broadcastInDim Cert.ReferenceIdeal.S1x4 ![1] bcast_S4_S1x4_1 b))

/-- The three-class scores: `h · Wh2 + bh2` on every row. -/
def scoresThree (h : Arr F Cert.KernelIdeal.S50000x128 .f32) (w : Arr F Cert.KernelIdeal.S128x3 .f32) (b : Arr F Cert.KernelIdeal.S3 .f32) :
    Arr F Cert.KernelIdeal.S50000x3 .f32 :=
  addf (Host.dotGeneral Cert.ReferenceIdeal.dot_S50000x128_S128x3_S50000x3_1_0_0_1_n_n none h w) (broadcastInDim Cert.ReferenceIdeal.S50000x3 ![0, 1] bcast_S1x3_S50000x3_0_1 (broadcastInDim Cert.ReferenceIdeal.S1x3 ![1] bcast_S3_S1x3_1 b))

end Cert.Model

end
-- ==== Proof.WholeProducts.lean ====
/-
  The row-tiled products of the four launches against the host's whole-array contraction.

  Each launch leaves `product a w z (r, q) = (∑ k, a (r, k) · w (k, q)) + z (0, q)` (Proof/InputProjection.lean and its
  three siblings). Over the extended reals the host's `dot_general` at `(r, q)` is the same sum over `k`. So:
  with the all-zero bias row the two inner launches ARE the contraction (`s + 0 = s` holds for every extended real,
  infinite ones included, so no finiteness is used); with a bias vector laid out as a `1 × n` row the two heads are
  the contraction plus that vector broadcast down the rows, which is how the reference adds it.
-/
import proofs.«104334_j12687333392400_1_alg».proof.Proof.InputProjection
import proofs.«104334_j12687333392400_1_alg».proof.Proof.HiddenProjection
import proofs.«104334_j12687333392400_1_alg».proof.Proof.HeadFour
import proofs.«104334_j12687333392400_1_alg».proof.Proof.HeadThree
import proofs.«104334_j12687333392400_1_alg».proof.Proof.Model

noncomputable section

namespace Cert.KernelIdeal.Whole

open Cert.KernelIdeal Idealize.ShloMosaic Cert.KernelIdeal.Graph

/-- The all-zero row reads zero everywhere. -/
theorem zeroRow_apply (j : S1x128.Idx) : zeroRow (F := Ideal) j = 0 :=
  (show zeroRow (F := Ideal) j = Ideal.ofBits .f32 0x00000000#32 from rfl).trans Ideal.ofBits_zero_f32

/-! ### The first layer's product `x · W1` -/

theorem input_lhs_row (i : S50000x128.Idx) (q : Cert.ReferenceIdeal.dot_S50000x256_S256x128_S50000x128_1_0_0_1_n_n.contr.Idx) :
    (Cert.ReferenceIdeal.dot_S50000x256_S256x128_S50000x128_1_0_0_1_n_n.lhsIdx i q 0).val = (i 0).val := by
  unfold DotDims.lhsIdx
  rw [dif_neg (show ¬(0 : Fin S50000x256.rank) ∈ Cert.ReferenceIdeal.dot_S50000x256_S256x128_S50000x128_1_0_0_1_n_n.lhsBatch by decide), dif_pos (show (0 : Fin S50000x256.rank) ∈ Cert.ReferenceIdeal.dot_S50000x256_S256x128_S50000x128_1_0_0_1_n_n.lhsNonContracting by decide)]
  rfl
theorem input_rhs_col (i : S50000x128.Idx) (q : Cert.ReferenceIdeal.dot_S50000x256_S256x128_S50000x128_1_0_0_1_n_n.contr.Idx) :
    (Cert.ReferenceIdeal.dot_S50000x256_S256x128_S50000x128_1_0_0_1_n_n.rhsIdx i q 1).val = (i 1).val := by
  unfold DotDims.rhsIdx
  rw [dif_neg (show ¬(1 : Fin S256x128.rank) ∈ Cert.ReferenceIdeal.dot_S50000x256_S256x128_S50000x128_1_0_0_1_n_n.rhsBatch by decide), dif_pos (show (1 : Fin S256x128.rank) ∈ Cert.ReferenceIdeal.dot_S50000x256_S256x128_S50000x128_1_0_0_1_n_n.rhsNonContracting by decide)]
  rfl

/-- The host's whole-array contraction at entry `(r, q)` is `∑ k, a (r, k) · w (k, q)`. -/
theorem input_apply (a : Arr Ideal S50000x256 .f32) (w : Arr Ideal S256x128 .f32) (i : S50000x128.Idx) :
    Host.dotGeneral (F := Ideal) (φ₁ := .f32) (φ₂ := .f32) Cert.ReferenceIdeal.dot_S50000x256_S256x128_S50000x128_1_0_0_1_n_n none a w i = ∑ k : Fin 256, a (InputProjection.lhsAt i k) * w (InputProjection.rhsAt i k) := by
  simp only [Host.dotGeneral]
  rw [Ideal.dotGeneral_apply, ← Equiv.sum_comp (ValueIdx.contrEquiv1 Cert.ReferenceIdeal.dot_S50000x256_S256x128_S50000x128_1_0_0_1_n_n 256 rfl rfl).symm]
  refine Finset.sum_congr rfl fun k _ => ?_
  have hk := ValueIdx.contrEquiv1_symm_val Cert.ReferenceIdeal.dot_S50000x256_S256x128_S50000x128_1_0_0_1_n_n 256 rfl rfl k
  have el : Cert.ReferenceIdeal.dot_S50000x256_S256x128_S50000x128_1_0_0_1_n_n.lhsIdx i ((ValueIdx.contrEquiv1 Cert.ReferenceIdeal.dot_S50000x256_S256x128_S50000x128_1_0_0_1_n_n 256 rfl rfl).symm k) = InputProjection.lhsAt i k := funext fun x => Fin.ext (by
    match x with
    | ⟨0, _⟩ => exact input_lhs_row _ _
    | ⟨1, _⟩ => exact (Cert.ReferenceIdeal.dot_S50000x256_S256x128_S50000x128_1_0_0_1_n_n.lhsIdx_val_of_single rfl i _).trans hk)
  have er : Cert.ReferenceIdeal.dot_S50000x256_S256x128_S50000x128_1_0_0_1_n_n.rhsIdx i ((ValueIdx.contrEquiv1 Cert.ReferenceIdeal.dot_S50000x256_S256x128_S50000x128_1_0_0_1_n_n 256 rfl rfl).symm k) = InputProjection.rhsAt i k := funext fun x => Fin.ext (by
    match x with
    | ⟨0, _⟩ => exact (Cert.ReferenceIdeal.dot_S50000x256_S256x128_S50000x128_1_0_0_1_n_n.rhsIdx_val_of_single rfl i _).trans hk
    | ⟨1, _⟩ => exact input_rhs_col _ _)
  rw [el, er]

/-! ### The second layer's product `h · W2` -/

theorem hidden_lhs_row (i : S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin S50000x128.rank) ∈ Cert.ReferenceIdeal.dot_S50000x128_S128x128_S50000x128_1_0_0_1_n_n.lhsBatch by decide), dif_pos (show (0 : Fin S50000x128.rank) ∈ Cert.ReferenceIdeal.dot_S50000x128_S128x128_S50000x128_1_0_0_1_n_n.lhsNonContracting by decide)]
  rfl
theorem hidden_rhs_col (i : S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin S128x128.rank) ∈ Cert.ReferenceIdeal.dot_S50000x128_S128x128_S50000x128_1_0_0_1_n_n.rhsBatch by decide), dif_pos (show (1 : Fin S128x128.rank) ∈ Cert.ReferenceIdeal.dot_S50000x128_S128x128_S50000x128_1_0_0_1_n_n.rhsNonContracting by decide)]
  rfl

/-- The host's whole-array contraction at entry `(r, q)` is `∑ k, a (r, k) · w (k, q)`. -/
theorem hidden_apply (a : Arr Ideal S50000x128 .f32) (w : Arr Ideal S128x128 .f32) (i : S50000x128.Idx) :
    Host.dotGeneral (F := Ideal) (φ₁ := .f32) (φ₂ := .f32) Cert.ReferenceIdeal.dot_S50000x128_S128x128_S50000x128_1_0_0_1_n_n none a w i = ∑ k : Fin 128, a (HiddenProjection.lhsAt i k) * w (HiddenProjection.rhsAt i k) := by
  simp only [Host.dotGeneral]
  rw [Ideal.dotGeneral_apply, ← Equiv.sum_comp (ValueIdx.contrEquiv1 Cert.ReferenceIdeal.dot_S50000x128_S128x128_S50000x128_1_0_0_1_n_n 128 rfl rfl).symm]
  refine Finset.sum_congr rfl fun k _ => ?_
  have hk := ValueIdx.contrEquiv1_symm_val Cert.ReferenceIdeal.dot_S50000x128_S128x128_S50000x128_1_0_0_1_n_n 128 rfl rfl k
  have el : Cert.ReferenceIdeal.dot_S50000x128_S128x128_S50000x128_1_0_0_1_n_n.lhsIdx i ((ValueIdx.contrEquiv1 Cert.ReferenceIdeal.dot_S50000x128_S128x128_S50000x128_1_0_0_1_n_n 128 rfl rfl).symm k) = HiddenProjection.lhsAt i k := funext fun x => Fin.ext (by
    match x with
    | ⟨0, _⟩ => exact hidden_lhs_row _ _
    | ⟨1, _⟩ => exact (Cert.ReferenceIdeal.dot_S50000x128_S128x128_S50000x128_1_0_0_1_n_n.lhsIdx_val_of_single rfl i _).trans hk)
  have er : Cert.ReferenceIdeal.dot_S50000x128_S128x128_S50000x128_1_0_0_1_n_n.rhsIdx i ((ValueIdx.contrEquiv1 Cert.ReferenceIdeal.dot_S50000x128_S128x128_S50000x128_1_0_0_1_n_n 128 rfl rfl).symm k) = HiddenProjection.rhsAt i k := funext fun x => Fin.ext (by
    match x with
    | ⟨0, _⟩ => exact (Cert.ReferenceIdeal.dot_S50000x128_S128x128_S50000x128_1_0_0_1_n_n.rhsIdx_val_of_single rfl i _).trans hk
    | ⟨1, _⟩ => exact hidden_rhs_col _ _)
  rw [el, er]

/-! ### The four-class head's product `h · Wh1` -/

theorem four_lhs_row (i : S50000x4.Idx) (q : Cert.ReferenceIdeal.dot_S50000x128_S128x4_S50000x4_1_0_0_1_n_n.contr.Idx) :
    (Cert.ReferenceIdeal.dot_S50000x128_S128x4_S50000x4_1_0_0_1_n_n.lhsIdx i q 0).val = (i 0).val := by
  unfold DotDims.lhsIdx
  rw [dif_neg (show ¬(0 : Fin S50000x128.rank) ∈ Cert.ReferenceIdeal.dot_S50000x128_S128x4_S50000x4_1_0_0_1_n_n.lhsBatch by decide), dif_pos (show (0 : Fin S50000x128.rank) ∈ Cert.ReferenceIdeal.dot_S50000x128_S128x4_S50000x4_1_0_0_1_n_n.lhsNonContracting by decide)]
  rfl
theorem four_rhs_col (i : S50000x4.Idx) (q : Cert.ReferenceIdeal.dot_S50000x128_S128x4_S50000x4_1_0_0_1_n_n.contr.Idx) :
    (Cert.ReferenceIdeal.dot_S50000x128_S128x4_S50000x4_1_0_0_1_n_n.rhsIdx i q 1).val = (i 1).val := by
  unfold DotDims.rhsIdx
  rw [dif_neg (show ¬(1 : Fin S128x4.rank) ∈ Cert.ReferenceIdeal.dot_S50000x128_S128x4_S50000x4_1_0_0_1_n_n.rhsBatch by decide), dif_pos (show (1 : Fin S128x4.rank) ∈ Cert.ReferenceIdeal.dot_S50000x128_S128x4_S50000x4_1_0_0_1_n_n.rhsNonContracting by decide)]
  rfl

/-- The host's whole-array contraction at entry `(r, q)` is `∑ k, a (r, k) · w (k, q)`. -/
theorem four_apply (a : Arr Ideal S50000x128 .f32) (w : Arr Ideal S128x4 .f32) (i : S50000x4.Idx) :
    Host.dotGeneral (F := Ideal) (φ₁ := .f32) (φ₂ := .f32) Cert.ReferenceIdeal.dot_S50000x128_S128x4_S50000x4_1_0_0_1_n_n none a w i = ∑ k : Fin 128, a (HeadFour.lhsAt i k) * w (HeadFour.rhsAt i k) := by
  simp only [Host.dotGeneral]
  rw [Ideal.dotGeneral_apply, ← Equiv.sum_comp (ValueIdx.contrEquiv1 Cert.ReferenceIdeal.dot_S50000x128_S128x4_S50000x4_1_0_0_1_n_n 128 rfl rfl).symm]
  refine Finset.sum_congr rfl fun k _ => ?_
  have hk := ValueIdx.contrEquiv1_symm_val Cert.ReferenceIdeal.dot_S50000x128_S128x4_S50000x4_1_0_0_1_n_n 128 rfl rfl k
  have el : Cert.ReferenceIdeal.dot_S50000x128_S128x4_S50000x4_1_0_0_1_n_n.lhsIdx i ((ValueIdx.contrEquiv1 Cert.ReferenceIdeal.dot_S50000x128_S128x4_S50000x4_1_0_0_1_n_n 128 rfl rfl).symm k) = HeadFour.lhsAt i k := funext fun x => Fin.ext (by
    match x with
    | ⟨0, _⟩ => exact four_lhs_row _ _
    | ⟨1, _⟩ => exact (Cert.ReferenceIdeal.dot_S50000x128_S128x4_S50000x4_1_0_0_1_n_n.lhsIdx_val_of_single rfl i _).trans hk)
  have er : Cert.ReferenceIdeal.dot_S50000x128_S128x4_S50000x4_1_0_0_1_n_n.rhsIdx i ((ValueIdx.contrEquiv1 Cert.ReferenceIdeal.dot_S50000x128_S128x4_S50000x4_1_0_0_1_n_n 128 rfl rfl).symm k) = HeadFour.rhsAt i k := funext fun x => Fin.ext (by
    match x with
    | ⟨0, _⟩ => exact (Cert.ReferenceIdeal.dot_S50000x128_S128x4_S50000x4_1_0_0_1_n_n.rhsIdx_val_of_single rfl i _).trans hk
    | ⟨1, _⟩ => exact four_rhs_col _ _)
  rw [el, er]

/-! ### The three-class head's product `h · Wh2` -/

theorem three_lhs_row (i : S50000x3.Idx) (q : Cert.ReferenceIdeal.dot_S50000x128_S128x3_S50000x3_1_0_0_1_n_n.contr.Idx) :
    (Cert.ReferenceIdeal.dot_S50000x128_S128x3_S50000x3_1_0_0_1_n_n.lhsIdx i q 0).val = (i 0).val := by
  unfold DotDims.lhsIdx
  rw [dif_neg (show ¬(0 : Fin S50000x128.rank) ∈ Cert.ReferenceIdeal.dot_S50000x128_S128x3_S50000x3_1_0_0_1_n_n.lhsBatch by decide), dif_pos (show (0 : Fin S50000x128.rank) ∈ Cert.ReferenceIdeal.dot_S50000x128_S128x3_S50000x3_1_0_0_1_n_n.lhsNonContracting by decide)]
  rfl
theorem three_rhs_col (i : S50000x3.Idx) (q : Cert.ReferenceIdeal.dot_S50000x128_S128x3_S50000x3_1_0_0_1_n_n.contr.Idx) :
    (Cert.ReferenceIdeal.dot_S50000x128_S128x3_S50000x3_1_0_0_1_n_n.rhsIdx i q 1).val = (i 1).val := by
  unfold DotDims.rhsIdx
  rw [dif_neg (show ¬(1 : Fin S128x3.rank) ∈ Cert.ReferenceIdeal.dot_S50000x128_S128x3_S50000x3_1_0_0_1_n_n.rhsBatch by decide), dif_pos (show (1 : Fin S128x3.rank) ∈ Cert.ReferenceIdeal.dot_S50000x128_S128x3_S50000x3_1_0_0_1_n_n.rhsNonContracting by decide)]
  rfl

/-- The host's whole-array contraction at entry `(r, q)` is `∑ k, a (r, k) · w (k, q)`. -/
theorem three_apply (a : Arr Ideal S50000x128 .f32) (w : Arr Ideal S128x3 .f32) (i : S50000x3.Idx) :
    Host.dotGeneral (F := Ideal) (φ₁ := .f32) (φ₂ := .f32) Cert.ReferenceIdeal.dot_S50000x128_S128x3_S50000x3_1_0_0_1_n_n none a w i = ∑ k : Fin 128, a (HeadThree.lhsAt i k) * w (HeadThree.rhsAt i k) := by
  simp only [Host.dotGeneral]
  rw [Ideal.dotGeneral_apply, ← Equiv.sum_comp (ValueIdx.contrEquiv1 Cert.ReferenceIdeal.dot_S50000x128_S128x3_S50000x3_1_0_0_1_n_n 128 rfl rfl).symm]
  refine Finset.sum_congr rfl fun k _ => ?_
  have hk := ValueIdx.contrEquiv1_symm_val Cert.ReferenceIdeal.dot_S50000x128_S128x3_S50000x3_1_0_0_1_n_n 128 rfl rfl k
  have el : Cert.ReferenceIdeal.dot_S50000x128_S128x3_S50000x3_1_0_0_1_n_n.lhsIdx i ((ValueIdx.contrEquiv1 Cert.ReferenceIdeal.dot_S50000x128_S128x3_S50000x3_1_0_0_1_n_n 128 rfl rfl).symm k) = HeadThree.lhsAt i k := funext fun x => Fin.ext (by
    match x with
    | ⟨0, _⟩ => exact three_lhs_row _ _
    | ⟨1, _⟩ => exact (Cert.ReferenceIdeal.dot_S50000x128_S128x3_S50000x3_1_0_0_1_n_n.lhsIdx_val_of_single rfl i _).trans hk)
  have er : Cert.ReferenceIdeal.dot_S50000x128_S128x3_S50000x3_1_0_0_1_n_n.rhsIdx i ((ValueIdx.contrEquiv1 Cert.ReferenceIdeal.dot_S50000x128_S128x3_S50000x3_1_0_0_1_n_n 128 rfl rfl).symm k) = HeadThree.rhsAt i k := funext fun x => Fin.ext (by
    match x with
    | ⟨0, _⟩ => exact (Cert.ReferenceIdeal.dot_S50000x128_S128x3_S50000x3_1_0_0_1_n_n.rhsIdx_val_of_single rfl i _).trans hk
    | ⟨1, _⟩ => exact three_rhs_col _ _)
  rw [el, er]

/-! ## The four launches -/

/-- Launch 0 with the zero bias row is `x · W1`. -/
theorem input_eq (x : Arr Ideal S50000x256 .f32) (w : Arr Ideal S256x128 .f32) :
    InputProjection.product x w zeroRow = Host.dotGeneral (F := Ideal) (φ₁ := .f32) (φ₂ := .f32) Cert.ReferenceIdeal.dot_S50000x256_S256x128_S50000x128_1_0_0_1_n_n none x w := by
  funext i
  unfold InputProjection.product
  rw [zeroRow_apply, add_zero]
  exact (input_apply x w i).symm

/-- Launch 1 with the zero bias row is `h · W2`. -/
theorem hidden_eq (h : Arr Ideal S50000x128 .f32) (w : Arr Ideal S128x128 .f32) :
    HiddenProjection.product h w zeroRow = Host.dotGeneral (F := Ideal) (φ₁ := .f32) (φ₂ := .f32) Cert.ReferenceIdeal.dot_S50000x128_S128x128_S50000x128_1_0_0_1_n_n none h w := by
  funext i
  unfold HiddenProjection.product
  rw [zeroRow_apply, add_zero]
  exact (hidden_apply h w i).symm

/-- Column `q` of a bias vector of length four, for the output entry `i = (r, q)`. -/
abbrev colFour (i : S50000x4.Idx) : S4.Idx := fun a => match a with
  | ⟨0, _⟩ => ⟨(i 1).val, (i 1).isLt⟩
/-- Column `q` of a bias vector of length three. -/
abbrev colThree (i : S50000x3.Idx) : S3.Idx := fun a => match a with
  | ⟨0, _⟩ => ⟨(i 1).val, (i 1).isLt⟩

/-- Launch 2 on the bias vector laid out as a row is the four-class head. -/
theorem headFour_eq (h : Arr Ideal S50000x128 .f32) (w : Arr Ideal S128x4 .f32) (b : Arr Ideal S4 .f32) :
    HeadFour.product h w (shapeCast _ b Gen.shapeCasts_S4_S1x4) = Cert.Model.scoresFour h w b := by
  funext i
  unfold HeadFour.product Cert.Model.scoresFour
  refine congrArg₂ (· + ·) (four_apply h w i).symm ?_
  have hL : shapeCast S1x4 b Gen.shapeCasts_S4_S1x4 (HeadFour.biasAt i) = b (colFour i) :=
    shapeCast_apply b Gen.shapeCasts_S4_S1x4 (HeadFour.biasAt i) (colFour i) (by
      rw [Shape.rowMajor_val_one, Shape.rowMajor_val_two]
      show (i 1).val = 0 * 4 + (i 1).val
      omega)
  refine hL.trans ?_
  symm
  refine (broadcastInDim_apply _ _ _ i (HeadFour.biasAt i) (fun a => by
    match a with
    | ⟨0, _⟩ => rfl
    | ⟨1, _⟩ => rfl)).trans ?_
  exact broadcastInDim_apply _ _ b (HeadFour.biasAt i) (colFour i) (fun a => by
    match a with
    | ⟨0, _⟩ => rfl)

/-- Launch 3 on the bias vector laid out as a row is the three-class head. -/
theorem headThree_eq (h : Arr Ideal S50000x128 .f32) (w : Arr Ideal S128x3 .f32) (b : Arr Ideal S3 .f32) :
    HeadThree.product h w (shapeCast _ b Gen.shapeCasts_S3_S1x3) = Cert.Model.scoresThree h w b := by
  funext i
  unfold HeadThree.product Cert.Model.scoresThree
  refine congrArg₂ (· + ·) (three_apply h w i).symm ?_
  have hL : shapeCast S1x3 b Gen.shapeCasts_S3_S1x3 (HeadThree.biasAt i) = b (colThree i) :=
    shapeCast_apply b Gen.shapeCasts_S3_S1x3 (HeadThree.biasAt i) (colThree i) (by
      rw [Shape.rowMajor_val_one, Shape.rowMajor_val_two]
      show (i 1).val = 0 * 3 + (i 1).val
      omega)
  refine hL.trans ?_
  symm
  refine (broadcastInDim_apply _ _ _ i (HeadThree.biasAt i) (fun a => by
    match a with
    | ⟨0, _⟩ => rfl
    | ⟨1, _⟩ => rfl)).trans ?_
  exact broadcastInDim_apply _ _ b (HeadThree.biasAt i) (colThree i) (fun a => by
    match a with
    | ⟨0, _⟩ => rfl)

end Cert.KernelIdeal.Whole

end
-- ==== Proof.LaunchToEntry.lean ====
/-
  From the launch memory to the first launch's entry, for any float values.

  The host operations before the first launch write only their own result buffers, so each argument array is still
  as launched; the bias row they build is all zeros; and the three graph quantities every later stage reads — the
  edges' sources and targets (with self loops) and the edges' weights — are the functions of Proof/GraphLayer.lean of
  the edge list as launched. Each equation is the fold of the host operations read at one buffer.
-/
import proofs.«104334_j12687333392400_1_alg».proof.Proof.Gen.KernelIdeal.Frame
import proofs.«104334_j12687333392400_1_alg».proof.Proof.GraphLayer

set_option maxRecDepth 16384

noncomputable section

namespace Cert.KernelIdeal.Entry

open Cert.KernelIdeal Cert.KernelIdeal.Gen Idealize.ShloMosaic Idealize.ShloMosaic.TcCoe Idealize.SL.Sem
open Cert.KernelIdeal.Graph

variable {F : FTy → Type} [FloatOps F]
variable (m : (ℓ : Loc nD τ sig) → Buf (Elt F) ℓ) (ρ : Dev nD → PrngReg) (c : Dev nD)

theorem entry0_x : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl
theorem entry0_w1 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl
theorem entry0_b1 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl
theorem entry0_w2 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl
theorem entry0_b2 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl
theorem entry0_wh1 : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp <;> rfl
theorem entry0_bh1 : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results_simp <;> rfl
theorem entry0_wh2 : W3 m ρ c (Proc.devRef .tc main_arg8) = m ((c : Thread nD τ).loc main_arg8) := by
  show StableHlo.after hostOps0_2 (StableHlo.after hostOps0_1 (StableHlo.after hostOps0 (W0 m ρ c))) (Proc.devRef .tc main_arg8) = _
  after_results_simp <;> rfl
theorem entry0_bh2 : W3 m ρ c (Proc.devRef .tc main_arg9) = m ((c : Thread nD τ).loc main_arg9) := by
  show StableHlo.after hostOps0_2 (StableHlo.after hostOps0_1 (StableHlo.after hostOps0 (W0 m ρ c))) (Proc.devRef .tc main_arg9) = _
  after_results_simp <;> rfl
theorem entry0_zero : W3 m ρ c (Proc.devRef .tc main_v31) = zeroRow (F := F) := by
  show StableHlo.after hostOps0_2 (StableHlo.after hostOps0_1 (StableHlo.after hostOps0 (W0 m ρ c))) (Proc.devRef .tc main_v31) = _
  after_results_simp <;> rfl
theorem entry0_src : W3 m ρ c (Proc.devRef .tc main_v5) = sources (m ((c : Thread nD τ).loc main_arg1)) := by
  show StableHlo.after hostOps0_2 (StableHlo.after hostOps0_1 (StableHlo.after hostOps0 (W0 m ρ c))) (Proc.devRef .tc main_v5) = _
  after_results_simp <;> rfl
theorem entry0_dst : W3 m ρ c (Proc.devRef .tc main_v6) = targets (m ((c : Thread nD τ).loc main_arg1)) := by
  show StableHlo.after hostOps0_2 (StableHlo.after hostOps0_1 (StableHlo.after hostOps0 (W0 m ρ c))) (Proc.devRef .tc main_v6) = _
  after_results_simp <;> rfl
theorem entry0_wt : W3 m ρ c (Proc.devRef .tc main_v29) = weight (m ((c : Thread nD τ).loc main_arg1)) := by
  show StableHlo.after hostOps0_2 (StableHlo.after hostOps0_1 (StableHlo.after hostOps0 (W0 m ρ c))) (Proc.devRef .tc main_v29) = _
  after_results_simp <;> rfl

end Cert.KernelIdeal.Entry

end
-- ==== Proof.BetweenLaunches.lean ====
/-
  The host stretches between the launches, for any float values, each read at the buffers a later stage needs and
  stated over the buffers the previous launch left (`Gen.W4`, `Gen.W8`, `Gen.W10`), whatever those hold.

  Between launches 0 and 1: one propagation of launch 0's output plus a bias, then the positive part; a zero bias row.
  Between launches 1 and 2: one propagation of launch 1's output plus a bias; a bias vector laid out as a row.
  Before launch 3: another bias vector laid out as a row. Every other buffer read later is kept as it was.
-/
import proofs.«104334_j12687333392400_1_alg».proof.Proof.Gen.KernelIdeal.Frame
import proofs.«104334_j12687333392400_1_alg».proof.Proof.GraphLayer

set_option maxRecDepth 16384

noncomputable section

namespace Cert.KernelIdeal.Between

open Cert.KernelIdeal Cert.KernelIdeal.Gen Idealize.ShloMosaic Idealize.ShloMosaic.TcCoe Idealize.SL.Sem
open Cert.KernelIdeal.Graph

variable {F : FTy → Type} [FloatOps F]
variable (m : (ℓ : Loc nD τ sig) → Buf (Elt F) ℓ) (ρ : Dev nD → PrngReg) (c : Dev nD)

/-! ## Kept through the stretch between launches 0 and 1 -/

theorem keep1_w2 : W7 m ρ c (Proc.devRef .tc main_arg4) = W4 m ρ c (Proc.devRef .tc main_arg4) := by
  show StableHlo.after hostOps1_2 (StableHlo.after hostOps1_1 (StableHlo.after hostOps1 (W4 m ρ c))) (Proc.devRef .tc main_arg4) = _
  after_results_simp <;> rfl
theorem keep1_b2 : W7 m ρ c (Proc.devRef .tc main_arg5) = W4 m ρ c (Proc.devRef .tc main_arg5) := by
  show StableHlo.after hostOps1_2 (StableHlo.after hostOps1_1 (StableHlo.after hostOps1 (W4 m ρ c))) (Proc.devRef .tc main_arg5) = _
  after_results_simp <;> rfl
theorem keep1_wh1 : W7 m ρ c (Proc.devRef .tc main_arg6) = W4 m ρ c (Proc.devRef .tc main_arg6) := by
  show StableHlo.after hostOps1_2 (StableHlo.after hostOps1_1 (StableHlo.after hostOps1 (W4 m ρ c))) (Proc.devRef .tc main_arg6) = _
  after_results_simp <;> rfl
theorem keep1_bh1 : W7 m ρ c (Proc.devRef .tc main_arg7) = W4 m ρ c (Proc.devRef .tc main_arg7) := by
  show StableHlo.after hostOps1_2 (StableHlo.after hostOps1_1 (StableHlo.after hostOps1 (W4 m ρ c))) (Proc.devRef .tc main_arg7) = _
  after_results_simp <;> rfl
theorem keep1_wh2 : W7 m ρ c (Proc.devRef .tc main_arg8) = W4 m ρ c (Proc.devRef .tc main_arg8) := by
  show StableHlo.after hostOps1_2 (StableHlo.after hostOps1_1 (StableHlo.after hostOps1 (W4 m ρ c))) (Proc.devRef .tc main_arg8) = _
  after_results_simp <;> rfl
theorem keep1_bh2 : W7 m ρ c (Proc.devRef .tc main_arg9) = W4 m ρ c (Proc.devRef .tc main_arg9) := by
  show StableHlo.after hostOps1_2 (StableHlo.after hostOps1_1 (StableHlo.after hostOps1 (W4 m ρ c))) (Proc.devRef .tc main_arg9) = _
  after_results_simp <;> rfl
theorem keep1_src : W7 m ρ c (Proc.devRef .tc main_v5) = W4 m ρ c (Proc.devRef .tc main_v5) := by
  show StableHlo.after hostOps1_2 (StableHlo.after hostOps1_1 (StableHlo.after hostOps1 (W4 m ρ c))) (Proc.devRef .tc main_v5) = _
  after_results_simp <;> rfl
theorem keep1_dst : W7 m ρ c (Proc.devRef .tc main_v6) = W4 m ρ c (Proc.devRef .tc main_v6) := by
  show StableHlo.after hostOps1_2 (StableHlo.after hostOps1_1 (StableHlo.after hostOps1 (W4 m ρ c))) (Proc.devRef .tc main_v6) = _
  after_results_simp <;> rfl
theorem keep1_wt : W7 m ρ c (Proc.devRef .tc main_v29) = W4 m ρ c (Proc.devRef .tc main_v29) := by
  show StableHlo.after hostOps1_2 (StableHlo.after hostOps1_1 (StableHlo.after hostOps1 (W4 m ρ c))) (Proc.devRef .tc main_v29) = _
  after_results_simp <;> rfl

/-- Launch 1's left operand: the first layer's output, rectified, over the buffers launch 0 left. -/
theorem entry1_in : W7 m ρ c (Proc.devRef .tc main_v49)
    = rectified (propagateAlong (W4 m ρ c (Proc.devRef .tc main_v5)) (W4 m ρ c (Proc.devRef .tc main_v6)) (W4 m ρ c (Proc.devRef .tc main_v29)) (W4 m ρ c (Proc.devRef .tc main_v32)) (W4 m ρ c (Proc.devRef .tc main_arg3))) := by
  show StableHlo.after hostOps1_2 (StableHlo.after hostOps1_1 (StableHlo.after hostOps1 (W4 m ρ c))) (Proc.devRef .tc main_v49) = _
  after_results_simp <;> rfl

theorem entry1_zero : W7 m ρ c (Proc.devRef .tc main_v51) = zeroRow (F := F) := by
  show StableHlo.after hostOps1_2 (StableHlo.after hostOps1_1 (StableHlo.after hostOps1 (W4 m ρ c))) (Proc.devRef .tc main_v51) = _
  after_results_simp <;> rfl

/-! ## Kept through the stretch between launches 1 and 2 -/

theorem keep2_wh1 : W9 m ρ c (Proc.devRef .tc main_arg6) = W8 m ρ c (Proc.devRef .tc main_arg6) := by
  show StableHlo.after hostOps2 (W8 m ρ c) (Proc.devRef .tc main_arg6) = _
  after_results_simp <;> rfl
theorem keep2_wh2 : W9 m ρ c (Proc.devRef .tc main_arg8) = W8 m ρ c (Proc.devRef .tc main_arg8) := by
  show StableHlo.after hostOps2 (W8 m ρ c) (Proc.devRef .tc main_arg8) = _
  after_results_simp <;> rfl
theorem keep2_bh2 : W9 m ρ c (Proc.devRef .tc main_arg9) = W8 m ρ c (Proc.devRef .tc main_arg9) := by
  show StableHlo.after hostOps2 (W8 m ρ c) (Proc.devRef .tc main_arg9) = _
  after_results_simp <;> rfl

theorem entry2_in : W9 m ρ c (Proc.devRef .tc main_v68)
    = propagateAlong (W8 m ρ c (Proc.devRef .tc main_v5)) (W8 m ρ c (Proc.devRef .tc main_v6)) (W8 m ρ c (Proc.devRef .tc main_v29)) (W8 m ρ c (Proc.devRef .tc main_v52)) (W8 m ρ c (Proc.devRef .tc main_arg5)) := by
  show StableHlo.after hostOps2 (W8 m ρ c) (Proc.devRef .tc main_v68) = _
  after_results_simp <;> rfl

theorem entry2_bias : W9 m ρ c (Proc.devRef .tc main_v69) = shapeCast S1x4 (W8 m ρ c (Proc.devRef .tc main_arg7)) Gen.shapeCasts_S4_S1x4 := by
  show StableHlo.after hostOps2 (W8 m ρ c) (Proc.devRef .tc main_v69) = _
  after_results_simp <;> rfl

/-! ## Through the one host operation before launch 3 -/

theorem keep3_wh2 : W11 m ρ c (Proc.devRef .tc main_arg8) = W10 m ρ c (Proc.devRef .tc main_arg8) := by
  show StableHlo.after hostOps3 (W10 m ρ c) (Proc.devRef .tc main_arg8) = _
  after_results_simp <;> rfl
theorem keep3_feat : W11 m ρ c (Proc.devRef .tc main_v68) = W10 m ρ c (Proc.devRef .tc main_v68) := by
  show StableHlo.after hostOps3 (W10 m ρ c) (Proc.devRef .tc main_v68) = _
  after_results_simp <;> rfl
theorem keep3_four : W11 m ρ c (Proc.devRef .tc main_v70) = W10 m ρ c (Proc.devRef .tc main_v70) := by
  show StableHlo.after hostOps3 (W10 m ρ c) (Proc.devRef .tc main_v70) = _
  after_results_simp <;> rfl

theorem entry3_bias : W11 m ρ c (Proc.devRef .tc main_v71) = shapeCast S1x3 (W10 m ρ c (Proc.devRef .tc main_arg9)) Gen.shapeCasts_S3_S1x3 := by
  show StableHlo.after hostOps3 (W10 m ρ c) (Proc.devRef .tc main_v71) = _
  after_results_simp <;> rfl

end Cert.KernelIdeal.Between

end
-- ==== Proof.KernelValues.lean ====
/-
  The kernel program's three result arrays, read off its run.

  The run leaves every buffer at `Gen.W12`, a fold over the launch memory: a stretch of host operations rewrites the
  buffers it writes and keeps the rest; a launch rewrites its output array to what its ten grid points wrote back
  (`product` of its three input arrays, Proof/InputProjection.lean and siblings) and keeps every other buffer. Walking
  each buffer a later stage reads back through the fold:

    * at launch 0's entry the edge ends and weights are the graph functions of the edge list, the bias row is zero;
    * launch 0 leaves `x · W1`; the next stretch propagates it, adds `b1` and takes the positive part;
    * launch 1 leaves that times `W2`; the next stretch propagates it and adds `b2`: the node features;
    * launches 2 and 3 leave the two score heads of the node features.

  So the three results are `Model.features`, `Model.scoresFour` and `Model.scoresThree` of the argument arrays.
-/
import proofs.«104334_j12687333392400_1_alg».proof.Proof.WholeProducts
import proofs.«104334_j12687333392400_1_alg».proof.Proof.LaunchToEntry
import proofs.«104334_j12687333392400_1_alg».proof.Proof.BetweenLaunches

set_option maxRecDepth 16384

noncomputable section

namespace Cert.KernelIdeal.Values

open Cert.KernelIdeal Cert.KernelIdeal.Gen Idealize.ShloMosaic Idealize.ShloMosaic.TcCoe Idealize.SL.Sem
open Cert.KernelIdeal.Graph Cert.KernelIdeal.Entry Cert.KernelIdeal.Between
open Idealize.ShloMosaic.Pipeline (Dat)

variable (m : (ℓ : Loc nD τ sig) → Buf (Elt Ideal) ℓ) (ρ : Dev nD → PrngReg) (c : Dev nD)

/-! ## Launch 0: `x · W1` -/

theorem exit0_out : W4 m ρ c (Proc.devRef .tc main_v32)
    = Host.dotGeneral (F := Ideal) (φ₁ := .f32) (φ₂ := .f32) Cert.ReferenceIdeal.dot_S50000x256_S256x128_S50000x128_1_0_0_1_n_n none (m ((c : Thread nD τ).loc main_arg0)) (m ((c : Thread nD τ).loc main_arg2)) := by
  refine (W4_arr m ρ c 3).trans ?_
  refine (InputProjection.array_eq (V3 m ρ) c).trans ?_
  show InputProjection.product (W3 m ρ c (Proc.devRef .tc main_arg0)) (W3 m ρ c (Proc.devRef .tc main_arg2)) (W3 m ρ c (Proc.devRef .tc main_v31)) = _
  rw [entry0_x m ρ c, entry0_w1 m ρ c, entry0_zero m ρ c]
  exact Whole.input_eq _ _

theorem exit0_src : W4 m ρ c (Proc.devRef .tc main_v5) = sources (m ((c : Thread nD τ).loc main_arg1)) := (W4_of_ne m ρ c main_v5 (by decide)).trans (entry0_src m ρ c)
theorem exit0_dst : W4 m ρ c (Proc.devRef .tc main_v6) = targets (m ((c : Thread nD τ).loc main_arg1)) := (W4_of_ne m ρ c main_v6 (by decide)).trans (entry0_dst m ρ c)
theorem exit0_wt : W4 m ρ c (Proc.devRef .tc main_v29) = weight (m ((c : Thread nD τ).loc main_arg1)) := (W4_of_ne m ρ c main_v29 (by decide)).trans (entry0_wt m ρ c)
theorem exit0_b1 : W4 m ρ c (Proc.devRef .tc main_arg3) = m ((c : Thread nD τ).loc main_arg3) := (W4_of_ne m ρ c main_arg3 (by decide)).trans (entry0_b1 m ρ c)
theorem exit0_w2 : W4 m ρ c (Proc.devRef .tc main_arg4) = m ((c : Thread nD τ).loc main_arg4) := (W4_of_ne m ρ c main_arg4 (by decide)).trans (entry0_w2 m ρ c)
theorem exit0_b2 : W4 m ρ c (Proc.devRef .tc main_arg5) = m ((c : Thread nD τ).loc main_arg5) := (W4_of_ne m ρ c main_arg5 (by decide)).trans (entry0_b2 m ρ c)
theorem exit0_wh1 : W4 m ρ c (Proc.devRef .tc main_arg6) = m ((c : Thread nD τ).loc main_arg6) := (W4_of_ne m ρ c main_arg6 (by decide)).trans (entry0_wh1 m ρ c)
theorem exit0_bh1 : W4 m ρ c (Proc.devRef .tc main_arg7) = m ((c : Thread nD τ).loc main_arg7) := (W4_of_ne m ρ c main_arg7 (by decide)).trans (entry0_bh1 m ρ c)
theorem exit0_wh2 : W4 m ρ c (Proc.devRef .tc main_arg8) = m ((c : Thread nD τ).loc main_arg8) := (W4_of_ne m ρ c main_arg8 (by decide)).trans (entry0_wh2 m ρ c)
theorem exit0_bh2 : W4 m ρ c (Proc.devRef .tc main_arg9) = m ((c : Thread nD τ).loc main_arg9) := (W4_of_ne m ρ c main_arg9 (by decide)).trans (entry0_bh2 m ρ c)

/-! ## The first layer -/

/-- Launch 1's left operand over the argument arrays. -/
theorem entry1_hidden : W7 m ρ c (Proc.devRef .tc main_v49)
    = rectified (propagate (m ((c : Thread nD τ).loc main_arg1)) (Host.dotGeneral (F := Ideal) (φ₁ := .f32) (φ₂ := .f32) Cert.ReferenceIdeal.dot_S50000x256_S256x128_S50000x128_1_0_0_1_n_n none (m ((c : Thread nD τ).loc main_arg0)) (m ((c : Thread nD τ).loc main_arg2))) (m ((c : Thread nD τ).loc main_arg3))) := by
  rw [entry1_in m ρ c, exit0_src m ρ c, exit0_dst m ρ c, exit0_wt m ρ c, exit0_out m ρ c, exit0_b1 m ρ c]
  rfl

/-! ## Launch 1: times `W2` -/

theorem exit1_out : W8 m ρ c (Proc.devRef .tc main_v52)
    = Host.dotGeneral (F := Ideal) (φ₁ := .f32) (φ₂ := .f32) Cert.ReferenceIdeal.dot_S50000x128_S128x128_S50000x128_1_0_0_1_n_n none (W7 m ρ c (Proc.devRef .tc main_v49)) (m ((c : Thread nD τ).loc main_arg4)) := by
  refine (W8_arr m ρ c 3).trans ?_
  refine (HiddenProjection.array_eq (V7 m ρ) c).trans ?_
  show HiddenProjection.product (W7 m ρ c (Proc.devRef .tc main_v49)) (W7 m ρ c (Proc.devRef .tc main_arg4)) (W7 m ρ c (Proc.devRef .tc main_v51)) = _
  rw [keep1_w2 m ρ c, exit0_w2 m ρ c, entry1_zero m ρ c]
  exact Whole.hidden_eq _ _

theorem exit1_src : W8 m ρ c (Proc.devRef .tc main_v5) = sources (m ((c : Thread nD τ).loc main_arg1)) := (W8_of_ne m ρ c main_v5 (by decide)).trans ((keep1_src m ρ c).trans (exit0_src m ρ c))
theorem exit1_dst : W8 m ρ c (Proc.devRef .tc main_v6) = targets (m ((c : Thread nD τ).loc main_arg1)) := (W8_of_ne m ρ c main_v6 (by decide)).trans ((keep1_dst m ρ c).trans (exit0_dst m ρ c))
theorem exit1_wt : W8 m ρ c (Proc.devRef .tc main_v29) = weight (m ((c : Thread nD τ).loc main_arg1)) := (W8_of_ne m ρ c main_v29 (by decide)).trans ((keep1_wt m ρ c).trans (exit0_wt m ρ c))
theorem exit1_b2 : W8 m ρ c (Proc.devRef .tc main_arg5) = m ((c : Thread nD τ).loc main_arg5) := (W8_of_ne m ρ c main_arg5 (by decide)).trans ((keep1_b2 m ρ c).trans (exit0_b2 m ρ c))
theorem exit1_wh1 : W8 m ρ c (Proc.devRef .tc main_arg6) = m ((c : Thread nD τ).loc main_arg6) := (W8_of_ne m ρ c main_arg6 (by decide)).trans ((keep1_wh1 m ρ c).trans (exit0_wh1 m ρ c))
theorem exit1_bh1 : W8 m ρ c (Proc.devRef .tc main_arg7) = m ((c : Thread nD τ).loc main_arg7) := (W8_of_ne m ρ c main_arg7 (by decide)).trans ((keep1_bh1 m ρ c).trans (exit0_bh1 m ρ c))
theorem exit1_wh2 : W8 m ρ c (Proc.devRef .tc main_arg8) = m ((c : Thread nD τ).loc main_arg8) := (W8_of_ne m ρ c main_arg8 (by decide)).trans ((keep1_wh2 m ρ c).trans (exit0_wh2 m ρ c))
theorem exit1_bh2 : W8 m ρ c (Proc.devRef .tc main_arg9) = m ((c : Thread nD τ).loc main_arg9) := (W8_of_ne m ρ c main_arg9 (by decide)).trans ((keep1_bh2 m ρ c).trans (exit0_bh2 m ρ c))

/-! ## The second layer -/

/-- THE NODE FEATURES, as launches 2 and 3 find them. -/
theorem entry2_features : W9 m ρ c (Proc.devRef .tc main_v68) = Cert.Model.features (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [entry2_in m ρ c, exit1_src m ρ c, exit1_dst m ρ c, exit1_wt m ρ c, exit1_out m ρ c, entry1_hidden m ρ c, exit1_b2 m ρ c]
  rfl

/-! ## Launch 2: the four-class head -/

theorem exit2_out : W10 m ρ c (Proc.devRef .tc main_v70) = Cert.Model.scoresFour (W9 m ρ c (Proc.devRef .tc main_v68)) (m ((c : Thread nD τ).loc main_arg6)) (m ((c : Thread nD τ).loc main_arg7)) := by
  refine (W10_arr m ρ c 3).trans ?_
  refine (HeadFour.array_eq (V9 m ρ) c).trans ?_
  show HeadFour.product (W9 m ρ c (Proc.devRef .tc main_v68)) (W9 m ρ c (Proc.devRef .tc main_arg6)) (W9 m ρ c (Proc.devRef .tc main_v69)) = _
  rw [keep2_wh1 m ρ c, exit1_wh1 m ρ c, entry2_bias m ρ c, exit1_bh1 m ρ c]
  exact Whole.headFour_eq _ _ _

/-- The node features are an INPUT of launch 2: it leaves them as it found them. -/
theorem exit2_features : W10 m ρ c (Proc.devRef .tc main_v68) = W9 m ρ c (Proc.devRef .tc main_v68) :=
  (W10_arr m ρ c 0).trans (((dat2 (V9 m ρ) c).arrAt_in 0 rfl _).trans (A_eq2 (V9 m ρ) c 0))
theorem exit2_wh2 : W10 m ρ c (Proc.devRef .tc main_arg8) = m ((c : Thread nD τ).loc main_arg8) := (W10_of_ne m ρ c main_arg8 (by decide)).trans ((keep2_wh2 m ρ c).trans (exit1_wh2 m ρ c))
theorem exit2_bh2 : W10 m ρ c (Proc.devRef .tc main_arg9) = m ((c : Thread nD τ).loc main_arg9) := (W10_of_ne m ρ c main_arg9 (by decide)).trans ((keep2_bh2 m ρ c).trans (exit1_bh2 m ρ c))

/-! ## Launch 3: the three-class head -/

theorem exit3_out : W12 m ρ c (Proc.devRef .tc main_v72) = Cert.Model.scoresThree (W11 m ρ c (Proc.devRef .tc main_v68)) (m ((c : Thread nD τ).loc main_arg8)) (m ((c : Thread nD τ).loc main_arg9)) := by
  refine (W12_arr m ρ c 3).trans ?_
  refine (HeadThree.array_eq (V11 m ρ) c).trans ?_
  show HeadThree.product (W11 m ρ c (Proc.devRef .tc main_v68)) (W11 m ρ c (Proc.devRef .tc main_arg8)) (W11 m ρ c (Proc.devRef .tc main_v71)) = _
  rw [keep3_wh2 m ρ c, exit2_wh2 m ρ c, entry3_bias m ρ c, exit2_bh2 m ρ c]
  exact Whole.headThree_eq _ _ _

theorem exit3_features : W12 m ρ c (Proc.devRef .tc main_v68) = W11 m ρ c (Proc.devRef .tc main_v68) :=
  (W12_arr m ρ c 0).trans (((dat3 (V11 m ρ) c).arrAt_in 0 rfl _).trans (A_eq3 (V11 m ρ) c 0))

/-! ## The three results -/

/-- The node features at launch 3's entry. -/
theorem entry3_features : W11 m ρ c (Proc.devRef .tc main_v68) = Cert.Model.features (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (keep3_feat m ρ c).trans ((exit2_features m ρ c).trans (entry2_features m ρ c))

/-- RESULT 2 (the node features). -/
theorem features_eq : W12 m ρ c (Proc.devRef .tc main_v68) = Cert.Model.features (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (exit3_features m ρ c).trans (entry3_features m ρ c)

/-- RESULT 0 (the four-class scores). -/
theorem scoresFour_eq : W12 m ρ c (Proc.devRef .tc main_v70) = Cert.Model.scoresFour (Cert.Model.features (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) := by
  refine (W12_of_ne m ρ c main_v70 (by decide)).trans ((keep3_four m ρ c).trans ((exit2_out m ρ c).trans ?_))
  rw [entry2_features m ρ c]

/-- RESULT 1 (the three-class scores). -/
theorem scoresThree_eq : W12 m ρ c (Proc.devRef .tc main_v72) = Cert.Model.scoresThree (Cert.Model.features (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg8)) (m ((c : Thread nD τ).loc main_arg9)) := by
  refine (exit3_out m ρ c).trans ?_
  rw [entry3_features m ρ c]

end Cert.KernelIdeal.Values

end
-- ==== Proof.ReferenceValues.lean ====
/-
  The reference program's three results are the model's three functions of its argument arrays.

  The reference's run states each result as the composed term of its 127 host operations. Its second layer recomputes
  the edge ends and weights from the same edge list, so that term holds the graph functions of Proof/GraphLayer.lean
  twice over; read against their definitions the composed term IS `Model.features` of the arguments, and the two
  score results are the heads applied to it. Nothing is computed here: both sides are the same operations of the same
  arrays.
-/
import proofs.«104334_j12687333392400_1_alg».proof.Proof.ReferenceRun
import proofs.«104334_j12687333392400_1_alg».proof.Proof.Model
import Idealize.ShloMosaic.PureOps.Ideal

set_option maxRecDepth 16384

noncomputable section

namespace Cert.ReferenceIdeal.Results

open Cert.ReferenceIdeal Idealize.ShloMosaic Idealize.ShloMosaic.TcCoe Idealize.SL.Sem
open Cert.KernelIdeal.Graph

variable (m : (ℓ : Loc nD τ sig) → Buf (Elt Ideal) ℓ) (c : Dev nD)

/-- The node features the reference returns. -/
theorem features_eq :
    RunP.res_main_v90 (F := Ideal) m c
      = Cert.Model.features (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold RunP.res_main_v90 Cert.Model.features propagate propagateAlong weight normaliser degree fromEnd sources targets rectified
  rfl

/-- The four-class scores the reference returns: the head applied to its node features. -/
theorem scoresFour_eq :
    RunP.res_main_v94 (F := Ideal) m c
      = Cert.Model.scoresFour (RunP.res_main_v90 (F := Ideal) m c) (m ((c.tc : Thread nD τ).loc main_arg6)) (m ((c.tc : Thread nD τ).loc main_arg7)) := by
  unfold RunP.res_main_v94 RunP.res_main_v90 Cert.Model.scoresFour
  rfl

/-- The three-class scores the reference returns. -/
theorem scoresThree_eq :
    RunP.res_main_v98 (F := Ideal) m c
      = Cert.Model.scoresThree (RunP.res_main_v90 (F := Ideal) m c) (m ((c.tc : Thread nD τ).loc main_arg8)) (m ((c.tc : Thread nD τ).loc main_arg9)) := by
  unfold RunP.res_main_v98 RunP.res_main_v90 Cert.Model.scoresThree
  rfl

end Cert.ReferenceIdeal.Results

end
-- ==== Proof.lean ====
/-
  A two-layer graph convolution with two score heads, its four dense products run as row-tiled kernels, against the
  same model with plain matrix products: equal results over the extended reals.

  Both programs compute, from node inputs `x`, an edge list `e` and weights `W1, b1, W2, b2, Wh1, bh1, Wh2, bh2`,

      h    = propagate e (relu (propagate e (x · W1) b1) · W2) b2        (the node features)
      out1 = h · Wh1 + bh1,      out2 = h · Wh2 + bh2                     (the two score heads)

  where `propagate` sends rows along the edges of the graph with self loops, weighted by the inverse square roots of
  the end nodes' degrees, and sums them at the targets (Proof/GraphLayer.lean). The graph part is the same host
  operations in both programs and is never opened. The programs differ only in the four products: the kernel's
  program computes each in ten blocks of 5000 rows, rounding its operands to bf16 and accumulating from zero, and
  adds a bias row inside the kernel (a row of zeros for the two inner products); the reference contracts the whole
  arrays at once and adds the head biases afterwards. Over the extended reals the roundings are the identity, each
  block's entry is the same sum over the contracted axis as the whole contraction's entry, the ten blocks tile the
  output, and `s + 0 = s` — laws that hold at infinite values too, so the inputs' finiteness is never used.

  The pieces: Proof/InputProjection.lean, HiddenProjection.lean, HeadFour.lean, HeadThree.lean (each launch's output
  array as one function of its input arrays); Proof/WholeProducts.lean (that function against the whole contraction);
  Proof/KernelRun.lean and Proof/KernelValues.lean (the kernel program's run, and its three results read off it);
  Proof/ReferenceRun.lean and Proof/ReferenceValues.lean (the same for the reference); Proof/Model.lean (the three
  results as functions of the arguments, which both sides meet).
-/
import proofs.«104334_j12687333392400_1_alg».proof.Defs
import proofs.«104334_j12687333392400_1_alg».proof.Proof.Gen.Kernel
import proofs.«104334_j12687333392400_1_alg».proof.Proof.Gen.Kernel.Skeleton
import proofs.«104334_j12687333392400_1_alg».proof.Proof.Gen.Kernel.Launch
import proofs.«104334_j12687333392400_1_alg».proof.Proof.Gen.Kernel.Points
import proofs.«104334_j12687333392400_1_alg».proof.Proof.Gen.Kernel.Frame
import proofs.«104334_j12687333392400_1_alg».proof.Proof.Gen.KernelIdeal
import proofs.«104334_j12687333392400_1_alg».proof.Proof.Gen.KernelIdeal.Skeleton
import proofs.«104334_j12687333392400_1_alg».proof.Proof.Gen.KernelIdeal.Launch
import proofs.«104334_j12687333392400_1_alg».proof.Proof.Gen.KernelIdeal.Points
import proofs.«104334_j12687333392400_1_alg».proof.Proof.Gen.KernelIdeal.Frame
import proofs.«104334_j12687333392400_1_alg».proof.Proof.Gen.ReferenceIdeal
import proofs.«104334_j12687333392400_1_alg».proof.Proof.Gen.Pre_finite_inputs
import proofs.«104334_j12687333392400_1_alg».proof.Proof.KernelRun
import proofs.«104334_j12687333392400_1_alg».proof.Proof.KernelValues
import proofs.«104334_j12687333392400_1_alg».proof.Proof.ReferenceRun
import proofs.«104334_j12687333392400_1_alg».proof.Proof.ReferenceValues
import Idealize.ShloMosaic.Adequacy
import Idealize.ShloMosaic.Init

noncomputable section

namespace Cert.Proof

open Idealize.ShloMosaic Idealize.ShloMosaic.TcCoe Idealize.SL.Sem

/-! ## The three frames -/

theorem frame_kernel : Cert.frame_Kernel := fun m ρ _ => Cert.Kernel.Gen.frame m ρ

theorem frame_ideal : Cert.frame_KernelIdeal := fun m ρ _ => Cert.KernelIdeal.Gen.frame m ρ

/-- The reference has no kernel: its frame is its run with the results dropped. -/
theorem frame_reference : Cert.frame_ReferenceIdeal := fun m ρ _ =>
  (θ_run Cert.ReferenceIdeal.defs _ _).mono (fun _ h c => (h c).2.2.2) (Cert.ReferenceIdeal.RunP.run (F := Ideal) m ρ)

/-! ## The idealization rewrote nothing -/

theorem preserves : Cert.preserves_Kernel_KernelIdeal := trivial

/-! ## Equal results -/

section
open Cert.KernelIdeal Cert.KernelIdeal.Gen

/-- The kernel program's run, each result array named by the last boundary's contents, the arguments as launched. -/
theorem kernel_results (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v70) = W12 m ρ c (Proc.devRef .tc main_v70)
      ∧ r.2.mem ((c.tc : Thread nD τ).loc main_v72) = W12 m ρ c (Proc.devRef .tc main_v72)
      ∧ r.2.mem ((c.tc : Thread nD τ).loc main_v68) = W12 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨h c _ (mem_uc main_v70 (by decide)), h c _ (mem_uc main_v72 (by decide)), h c _ (mem_uc main_v68 (by decide)),
     (h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c),
     (h c _ (mem_uc main_arg9 (by decide))).trans (W12_main_arg9 m ρ c)⟩)
    (Cert.KernelIdeal.Run.every_buffer m ρ)
end

/-- Run from memories that agree on the ten arguments, the two programs end with the same three results: each is the
    model's function of its own arguments (Proof/KernelValues.lean, Proof/ReferenceValues.lean), and the arguments agree. -/
theorem algebraic : Cert.algebraic_KernelIdeal_ReferenceIdeal := by
  intro m ρ m' ρ' _ hagree
  refine ⟨_, _, _, kernel_results m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.RunP.run (F := Ideal) m' ρ')
  all_goals obtain ⟨h0, h1, h2, h3, h4, h5, h6, h7, h8, h9⟩ := hagree c
  · rw [Cert.ReferenceIdeal.Results.scoresFour_eq m' c, Cert.ReferenceIdeal.Results.features_eq m' c,
      Cert.KernelIdeal.Values.scoresFour_eq m ρ c, h0, h1, h2, h3, h4, h5, h6, h7]
  · rw [Cert.ReferenceIdeal.Results.scoresThree_eq m' c, Cert.ReferenceIdeal.Results.features_eq m' c,
      Cert.KernelIdeal.Values.scoresThree_eq m ρ c, h0, h1, h2, h3, h4, h5, h8, h9]
  · rw [Cert.ReferenceIdeal.Results.features_eq m' c, Cert.KernelIdeal.Values.features_eq m ρ c, h0, h1, h2, h3, h4, h5]

/-! ## The claim -/

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
